-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S8192x16384 : Shape := ⟨2, ![8192, 16384]⟩
abbrev S2048x256 : Shape := ⟨2, ![2048, 256]⟩
abbrev S1024x256 : Shape := ⟨2, ![1024, 256]⟩
abbrev S2048x1 : Shape := ⟨2, ![2048, 1]⟩
abbrev S2048x1024 : Shape := ⟨2, ![2048, 1024]⟩
abbrev S4x2048x16384 : Shape := ⟨3, ![4, 2048, 16384]⟩

abbrev nBuf : Space → Nat
  | .hbm => 25
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S16384x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S8192x16384, .f32⟩
  | .hbm, ⟨24, _⟩ => ⟨S4x2048x16384, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1, .f32⟩
  | .local _ .vmem, ⟨5, _⟩ => ⟨S2048x1, .f32⟩
  | .local _ .vmem, ⟨6, _⟩ => ⟨S1x1, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 16, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  reducesTo_S16384x4096_S_d0_1 : S16384x4096.ReducesTo [0, 1] S_
  shapeCasts_S_S1x1 : S_.ShapeCasts S1x1
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S2048x1_S2048x256 : S2048x1.Broadcasts S2048x256
  bitsLt_bf16_f32 : FTy.bits .bf16 < FTy.bits .f32
  broadcasts_S1x1_S1024x256 : S1x1.Broadcasts S1024x256
  shapeCasts_S2048x1024_S2048x1024 : S2048x1024.ShapeCasts S2048x1024
  shapeCasts_S8192x16384_S4x2048x16384 : S8192x16384.ShapeCasts S4x2048x16384
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x4096.size a
  hwx0_1 : ∀ i : grid0.Coords, EltTy.bits .f32 = 32 ∨ (Rect.block (s := S16384x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x16384.size a
  hwx0_4 : ∀ i : grid0.Coords, EltTy.bits .f32 = 32 ∨ (Rect.block (s := S8192x16384) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S4x2048 : Shape := ⟨2, ![4, 2048]⟩
abbrev S4x2048x1 : Shape := ⟨3, ![4, 2048, 1]⟩
abbrev S4x2048x16384 : Shape := ⟨3, ![4, 2048, 16384]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S16384x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_cst_6 : Ref sig .tc := ⟨.hbm, 33, rfl⟩
abbrev main_call3_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_cst_8 : Ref sig .tc := ⟨.hbm, 40, rfl⟩
abbrev main_call5_v0 : Ref sig .tc := ⟨.hbm, 41, rfl⟩
abbrev main_call5_v1 : Ref sig .tc := ⟨.hbm, 42, rfl⟩
abbrev main_call5_v2 : Ref sig .tc := ⟨.hbm, 43, rfl⟩
abbrev main_call5_v3 : Ref sig .tc := ⟨.hbm, 44, rfl⟩
abbrev main_call5_v4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S16384x4096_S_d0_1 : S16384x4096.ReducesTo [0, 1] S_
  bcast_S_S16384x4096 : S_.BroadcastsInDim S16384x4096 (![] : Fin 0 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.BodyPieces.lean ====
/-
  What the kernel body leaves in the output block, case by case.

  At a grid point whose reduction coordinate is 0 the body first overwrites the whole output block with zeros and then
  stores  (that zero block) + (the product of the two quantised input blocks);  at every other point it stores
  (what the block held) + (the product).  Both stores cover the whole block, so what the block holds afterwards is the
  last store's value, a pure function of the four input blocks and of what the block held before.
-/
import proofs.«109422_j16716012716233_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A point that continues an accumulation: the block ends at (its contents before) + (the product of the quantised
    input blocks), the body's one covering store. -/
theorem out_B (c : Dev nD) (i : grid0.Coords) (a3 : Memref sig .tc .vmem S2048x256 .f32) (h3 : a3.IsWhole)
    (a4 : Memref sig .tc .vmem S1024x256 .f32) (h4 : a4.IsWhole) (a5 : Memref sig .tc .vmem S2048x1 .f32) (h5 : a5.IsWhole)
    (a6 : Memref sig .tc .vmem S1x1 .f32) (h6 : a6.IsWhole) (a7 : Memref sig .tc .vmem S2048x1024 .f32) (h7 : a7.IsWhole)
    (hc : ¬cond0_0 i) (x0 : Vec F S2048x256 .f32) (x1 : Vec F S1024x256 .f32) (x2 : Vec F S2048x1 .f32) (x3 : Vec F S1x1 .f32)
    (xo : Vec F S2048x1024 .f32) :
    out0_B_4 c i a3 h3 a4 h4 a5 h5 a6 h6 a7 h7 hc x0 x1 x2 x3 xo = k0_pay2 x0 x1 x2 x3 xo := by
  unfold out0_B_4
  rw [View.read_writes_eq_canon _ _ _ (cover0_B_4 c i a3 h3 a4 h4 a5 h5 a6 h6 a7 h7 hc x0 x1 x2 x3 xo)]
  unfold kernelRun0_B
  dsimp only
  rw [View.canon_unit_zero hz]
  simp only [View.readAt_eq_ld, h3.read_unread, h4.read_unread, h5.read_unread, h6.read_unread, h7.read_unread,
    View.ld_unit_zero (S := S2048x256) hz, View.ld_unit_zero (S := S1024x256) hz, View.ld_unit_zero (S := S2048x1) hz,
    View.ld_unit_zero (S := S1x1) hz, View.ld_unit_zero (S := S2048x1024) hz]

/-- A point that starts an accumulation: the block ends at (the zero block) + (the product); the zero block is the
    body's own first store read back. -/
theorem out_A (c : Dev nD) (i : grid0.Coords) (a3 : Memref sig .tc .vmem S2048x256 .f32) (h3 : a3.IsWhole)
    (a4 : Memref sig .tc .vmem S1024x256 .f32) (h4 : a4.IsWhole) (a5 : Memref sig .tc .vmem S2048x1 .f32) (h5 : a5.IsWhole)
    (a6 : Memref sig .tc .vmem S1x1 .f32) (h6 : a6.IsWhole) (a7 : Memref sig .tc .vmem S2048x1024 .f32) (h7 : a7.IsWhole)
    (hc : cond0_0 i) (x0 : Vec F S2048x256 .f32) (x1 : Vec F S1024x256 .f32) (x2 : Vec F S2048x1 .f32) (x3 : Vec F S1x1 .f32) :
    out0_A_4 c i a3 h3 a4 h4 a5 h5 a6 h6 a7 h7 hc x0 x1 x2 x3 = k0_pay2 x0 x1 x2 x3 (k0_pay1 (F := F)) := by
  unfold out0_A_4
  rw [View.read_writes_eq_canon _ _ _ (cover0_A_4 c i a3 h3 a4 h4 a5 h5 a6 h6 a7 h7 hc x0 x1 x2 x3)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x256) hz, View.ld_unit_zero (S := S1024x256) hz, View.ld_unit_zero (S := S2048x1) hz,
    View.ld_unit_zero (S := S1x1) hz, View.ld_unit_zero (S := S2048x1024) hz]

end Cert.KernelIdeal.Body

end
-- ==== Proof.LibBlockSum.lean ====
/-
  A finite sum regrouped into consecutive blocks.

  A sum over the J·n indices 0 … J·n − 1 is the sum over the J blocks k of the sums over the n indices n·k + l inside
  block k. Addition in a commutative monoid needs nothing more (no finiteness of the values). The block sums are
  stated for every natural k (zero past the last block) so that a running total over the first blocks is a sum over a
  range of naturals.
-/
import Mathlib.Algebra.BigOperators.Fin
import Mathlib.Algebra.BigOperators.Intervals
import Mathlib.Logic.Equiv.Fin.Basic

namespace Cert.Lib.BlockSum

variable {M : Type*} [AddCommMonoid M]

/-- Index n·k + l of block k < J is below J·n. -/
theorem idx_lt {J n N : ℕ} (hN : J * n = N) {k : ℕ} (hk : k < J) (l : Fin n) : n * k + l.val < N := by
  have h1 : n * k + l.val < n * (k + 1) := by rw [Nat.mul_succ]; exact Nat.add_lt_add_left l.isLt _
  have h2 : n * (k + 1) ≤ n * J := Nat.mul_le_mul_left n hk
  rw [← hN, Nat.mul_comm J n]
  exact Nat.lt_of_lt_of_le h1 h2

/-- The sum over all indices is the sum over the blocks of the sums inside each block. -/
theorem sum_blocks (J n : ℕ) {N : ℕ} (hN : J * n = N) (f : Fin N → M) :
    ∑ q, f q = ∑ k : Fin J, ∑ l : Fin n, f ⟨n * k.val + l.val, idx_lt hN k.isLt l⟩ := by
  subst hN
  rw [← (finProdFinEquiv (m := J) (n := n)).sum_comp f, Fintype.sum_prod_type]
  refine Finset.sum_congr rfl fun k _ => Finset.sum_congr rfl fun l _ => congrArg f (Fin.ext ?_)
  show l.val + n * k.val = n * k.val + l.val
  exact Nat.add_comm _ _

/-- The sum inside block k; zero for k past the last block. -/
def blk (J n : ℕ) {N : ℕ} (hN : J * n = N) (f : Fin N → M) (k : ℕ) : M :=
  if hk : k < J then ∑ l : Fin n, f ⟨n * k + l.val, idx_lt hN hk l⟩ else 0

theorem blk_of_lt (J n : ℕ) {N : ℕ} (hN : J * n = N) (f : Fin N → M) {k : ℕ} (hk : k < J) :
    blk J n hN f k = ∑ l : Fin n, f ⟨n * k + l.val, idx_lt hN hk l⟩ := dif_pos hk

/-- The sum over all indices is the sum of the J block sums. -/
theorem sum_eq_sum_blk (J n : ℕ) {N : ℕ} (hN : J * n = N) (f : Fin N → M) :
    ∑ q, f q = ∑ k ∈ Finset.range J, blk J n hN f k := by
  rw [sum_blocks J n hN f, ← Fin.sum_univ_eq_sum_range (blk J n hN f) J]
  exact Finset.sum_congr rfl fun k _ => (blk_of_lt J n hN f k.isLt).symm

end Cert.Lib.BlockSum
-- ==== Proof.Spec.lean ====
/-
  The mathematics of the quantised linear layer, with no program in sight.

  An activation x of a row whose scale is s is replaced by  qa x s = min 7 (max (-8) (round (x / s))) · s,  a weight w by
  qw w t = min 1 (max (-1) (round (w / t))) · t  for the one global scale t; the layer's output at (r, n) is the inner
  product  Σ_i qa X[r,i] s_r · qw W[n,i] t  over the 4096 input features.  Everything is read over the extended reals:
  the rounding and the quotient are the exact ones, never opened here.

  Two laws join the two programs.  The straight-through form  x + (q − x)  is  q  as soon as x is a real number (q may
  be anything).  And a sum accumulated block by block from zero — 0 + B₀, then + B₁, … — is the sum of the blocks, hence
  (the blocks being 16 runs of 256 consecutive features) the sum over all 4096 features; addition of extended reals is
  commutative and associative, so no finiteness is needed for that.
-/
import Idealize.ShloMosaic.PureOps.Ideal
import Idealize.ShloMosaic.Lib.ValueIdx
import proofs.«109422_j16716012716233_1_alg».proof.Proof.LibBlockSum

noncomputable section

namespace Cert.BitLinear

open Idealize.ShloMosaic

/-- The activation quantiser: round x / s to the nearest integer (ties to even), clamp to [-8, 7], scale back by s. -/
def qa (x s : EReal) : EReal :=
  min (Ideal.ofBits .f32 0x40E00000#32) (max (Ideal.ofBits .f32 0xC1000000#32) (Ideal.liftRound Ideal.roundHalfEven (Ideal.div x s))) * s

/-- The weight quantiser: round w / t, clamp to [-1, 1], scale back by t. -/
def qw (w t : EReal) : EReal :=
  min (Ideal.ofBits .f32 0x3F800000#32) (max (Ideal.ofBits .f32 0xBF800000#32) (Ideal.liftRound Ideal.roundHalfEven (Ideal.div w t))) * t

/-- The straight-through form x + (q − x) is q when x is a real number: for a real q by arithmetic, for an infinite q
    because a real number neither moves nor cancels an infinity. -/
theorem straight_through (x : ℝ) (q : EReal) : (x : EReal) + (q - (x : EReal)) = q := by
  induction q using EReal.rec with
  | bot => simp
  | coe r => rw [← EReal.coe_sub, ← EReal.coe_add]; congr 1; ring
  | top => simp

/-- The running total after block k of a sum accumulated from zero, one block at a time, in order. -/
def chain (f : ℕ → EReal) : ℕ → EReal
  | 0 => (0 : EReal) + f 0
  | k + 1 => chain f k + f (k + 1)

/-- It is the sum of the blocks so far. -/
theorem chain_eq_sum (f : ℕ → EReal) (k : ℕ) : chain f k = ∑ j ∈ Finset.range (k + 1), f j := by
  induction k with
  | zero => simp [chain]
  | succ k ih => rw [chain, ih, Finset.sum_range_succ _ (k + 1)]

/-- The inner product over 4096 features, accumulated in 16 blocks of 256 from zero, is the inner product. -/
theorem chain_blocks (g : Fin 4096 → EReal) :
    chain (Cert.Lib.BlockSum.blk 16 256 (by norm_num) g) 15 = ∑ i, g i := by
  rw [chain_eq_sum, Cert.Lib.BlockSum.sum_eq_sum_blk 16 256 (by norm_num) g]

end Cert.BitLinear

end
-- ==== Proof.LibMatmulNT.lean ====
/-
  A reusable lemma: a matrix product against a transposed right operand, read at an entry.

  A `tpu.matmul` of an [M, K] operand by an [N, K] operand — contracting axis 1 of the left with axis 1 of the right, no
  batch axes — accumulated into the zero splat, read over the extended reals at the output entry (p, q), is the inner
  product of row p of the left operand with row q of the right one:

      (L · Rᵀ)[p, q] = Σ_{k < K} L[p, k] · R[q, k].

  Generic in the extents M, K, N and in the operands' float formats; the dimension record may be any one that equals the
  library's M×K by N×K record (a printed program's own record does, by unfolding).
-/
import Idealize.ShloMosaic.PureOps.Ideal.Laws
import Idealize.ShloMosaic.Lib.ValueIdx

noncomputable section

namespace Cert.MatmulNT

open Idealize.ShloMosaic Idealize.ShloMosaic.ValueIdx

variable {M K N : Nat} {φ₁ φ₂ : FTy}

/-- The left operand's index at output (p, q) and contraction position k is (p, k). -/
theorem lhsIdx_transposedRhs (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl (ix2 p q) _).trans
        (contrEquiv1_symm_val (DotDims.transposedRhs M K N) K rfl rfl k))

/-- The right operand's index at output (p, q) and contraction position k is (q, k). -/
theorem rhsIdx_transposedRhs (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => rfl
    | ⟨1, _⟩ =>
      exact ((DotDims.transposedRhs M K N).rhsIdx_val_of_single rfl (ix2 p q) _).trans
        (contrEquiv1_symm_val (DotDims.transposedRhs M K N) K rfl rfl k))

/-- A matrix product against a transposed right operand, into zeros, at entry (p, q): the inner product of row p of the
    left operand with row q of the right one. -/
theorem matmul_zero_apply (D : DotDims ⟨2, ![M, K]⟩ ⟨2, ![N, K]⟩ ⟨2, ![M, N]⟩) (hD : D = DotDims.transposedRhs M K N)
    (prec : Option ContractPrecision) (lhs : FVec Ideal ⟨2, ![M, K]⟩ φ₁) (rhs : FVec Ideal ⟨2, ![N, K]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

end Cert.MatmulNT

end
-- ==== Proof.PayloadAt.lean ====
/-
  The body's arithmetic read at one entry, over the extended reals.

  With x0 the [2048, 256] block of activations, x1 the [1024, 256] block of weights, x2 the [2048, 1] column of
  per-row activation scales, x3 the [1, 1] weight scale and xo what the output block held, the value the body stores
  at entry (p, q) of the [2048, 1024] output block is

      xo[p, q] + Σ_{l < 256} qa x0[p, l] x2[p, 0] · qw x1[q, l] x3[0, 0]:

  the quantisers are pointwise, the two scale operands are broadcasts of a column and of a single entry, the rounding
  to the narrower float format is the identity over the extended reals, and a matrix product against the transposed
  right operand into zeros is the inner product of row p of the left with row q of the right.
-/
import proofs.«109422_j16716012716233_1_alg».proof.Proof.Gen.KernelIdeal.Skeleton
import proofs.«109422_j16716012716233_1_alg».proof.Proof.Spec
import proofs.«109422_j16716012716233_1_alg».proof.Proof.LibMatmulNT
import Idealize.ShloMosaic.Lib.Pipeline.Value
import Idealize.ShloMosaic.Lib.ValueIdx

noncomputable section

open Idealize.ShloMosaic Idealize.ShloMosaic.ValueIdx

namespace Cert.KernelIdeal.Body

open Cert.KernelIdeal Cert.KernelIdeal.Gen Cert.BitLinear

/-- The column of row scales broadcast along the features: entry (p, l) is the scale of row p. -/
theorem col_bcast (x2 : Vec Ideal S2048x1 .f32) (p : Fin 2048) (l : Fin 256) :
    broadcastTo S2048x256 (shapeCast S2048x1 x2 shapeCasts_S2048x1_S2048x1) broadcasts_S2048x1_S2048x256 (ix2 p l)
      = x2 (ix2 p 0) := by
  rw [shapeCast_self]
  exact broadcastTo_apply x2 _ (ix2 p l) (ix2 p 0) (fun a => match a with
    | ⟨0, _⟩ => by show p.val = if (2048 : Nat) = 1 then 0 else p.val; rw [if_neg (by decide)]
    | ⟨1, _⟩ => by show (0 : Nat) = if (1 : Nat) = 1 then 0 else l.val; rw [if_pos rfl])

/-- The single weight scale broadcast over the weight block: every entry is that scale. -/
theorem one_bcast (x3 : Vec Ideal S1x1 .f32) (q : Fin 1024) (l : Fin 256) :
    broadcastTo S1024x256 (shapeCast S1x1 x3 shapeCasts_S1x1_S1x1) broadcasts_S1x1_S1024x256 (ix2 q l)
      = x3 (ix2 0 0) := by
  rw [shapeCast_self]
  exact broadcastTo_apply x3 _ (ix2 q l) (ix2 0 0) (fun a => match a with
    | ⟨0, _⟩ => by show (0 : Nat) = if (1 : Nat) = 1 then 0 else q.val; rw [if_pos rfl]
    | ⟨1, _⟩ => by show (0 : Nat) = if (1 : Nat) = 1 then 0 else l.val; rw [if_pos rfl])

/-- The stored value at entry (p, q): what the block held there plus the inner product, over the block's 256
    features, of the quantised activations of row p with the quantised weights of row q. -/
theorem pay2_apply (x0 : Vec Ideal S2048x256 .f32) (x1 : Vec Ideal S1024x256 .f32) (x2 : Vec Ideal S2048x1 .f32)
    (x3 : Vec Ideal S1x1 .f32) (xo : Vec Ideal S2048x1024 .f32) (p : Fin 2048) (q : Fin 1024) :
    k0_pay2 (F := Ideal) x0 x1 x2 x3 xo (ix2 p q)
      = xo (ix2 p q) + ∑ l : Fin 256, qa (x0 (ix2 p l)) (x2 (ix2 p 0)) * qw (x1 (ix2 q l)) (x3 (ix2 0 0)) := by
  unfold k0_pay2
  refine congrArg₂ (· + ·) (congrFun (shapeCast_self xo _) _) ?_
  refine (Cert.MatmulNT.matmul_zero_apply _ rfl none _ _ p q).trans ?_
  refine Finset.sum_congr rfl fun l _ => ?_
  refine congrArg₂ (· * ·) ?_ ?_
  · show min (Ideal.ofBits .f32 0x40E00000#32) (max (Ideal.ofBits .f32 0xC1000000#32) (Ideal.liftRound Ideal.roundHalfEven
        (Ideal.div (shapeCast S2048x256 x0 shapeCasts_S2048x256_S2048x256 (ix2 p l))
          (broadcastTo S2048x256 (shapeCast S2048x1 x2 shapeCasts_S2048x1_S2048x1) broadcasts_S2048x1_S2048x256 (ix2 p l)))))
        * broadcastTo S2048x256 (shapeCast S2048x1 x2 shapeCasts_S2048x1_S2048x1) broadcasts_S2048x1_S2048x256 (ix2 p l) = _
    rw [col_bcast, shapeCast_self]
    rfl
  · show min (Ideal.ofBits .f32 0x3F800000#32) (max (Ideal.ofBits .f32 0xBF800000#32) (Ideal.liftRound Ideal.roundHalfEven
        (Ideal.div (x1 (ix2 q l))
          (broadcastTo S1024x256 (shapeCast S1x1 x3 shapeCasts_S1x1_S1x1) broadcasts_S1x1_S1024x256 (ix2 q l)))))
        * broadcastTo S1024x256 (shapeCast S1x1 x3 shapeCasts_S1x1_S1x1) broadcasts_S1x1_S1024x256 (ix2 q l) = _
    rw [one_bcast]
    rfl

/-- The block of zeros the first store writes: every entry is zero. -/
theorem pay1_apply (j : S2048x1024.Idx) : k0_pay1 (F := Ideal) j = 0 := Ideal.ofBits_zero_f32

end Cert.KernelIdeal.Body

end
-- ==== Proof.Blocks.lean ====
/-
  Where each window's block sits in its array.

  The grid has 4 · 16 · 16 points; point t has row-block t / 256, column-block t / 16 mod 16 and reduction step
  t mod 16.  At point t the activation window holds rows 2048 (t / 256) + p and features 256 (t mod 16) + l of the
  [8192, 4096] activation matrix, the weight window rows 1024 (t / 16 mod 16) + q and the same features of the
  [16384, 4096] weight matrix, the scale window rows 2048 (t / 256) + p of the [8192, 1] column of row scales, the
  weight-scale window the single entry of the [1, 1] array, and the output window rows 2048 (t / 256) + p and columns
  1024 (t / 16 mod 16) + q of the [8192, 16384] result.
-/
import proofs.«109422_j16716012716233_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps in closed form, decided over the grid's points. -/
theorem idx_facts : ∀ t : Fin cfg0.N,
    win0_0.index t (0 : Fin 2) = t.val / 256 ∧ win0_0.index t (1 : Fin 2) = t.val % 16
    ∧ win0_1.index t (0 : Fin 2) = t.val / 16 % 16 ∧ win0_1.index t (1 : Fin 2) = t.val % 16
    ∧ win0_2.index t (0 : Fin 2) = t.val / 256 ∧ win0_2.index t (1 : Fin 2) = 0
    ∧ win0_3.index t (0 : Fin 2) = 0 ∧ win0_3.index t (1 : Fin 2) = 0
    ∧ win0_4.index t (0 : Fin 2) = t.val / 256 ∧ win0_4.index t (1 : Fin 2) = t.val / 16 % 16 :=
  (by decide +kernel : ∀ t : Fin grid0.N, _)

/-- The activation block at point t, entry (p, l): row 2048 (t / 256) + p, feature 256 (t mod 16) + l of the matrix. -/
theorem iblk0_apply (c : Dev nD) (t : Fin cfg0.N) (p : Fin 2048) (l : Fin 256) (r : Fin 8192) (i : Fin 4096)
    (hr : r.val = 2048 * (t.val / 256) + p.val) (hi : i.val = 256 * (t.val % 16) + l.val) :
    (iblk m c 0 t : Vec F S2048x256 .f32) (ix2 p l) = (V m c main_v0 : Vec F S8192x4096 .f32) (ix2 r i) := by
  obtain ⟨e0, e1, -⟩ := idx_facts t
  unfold iblk
  rw [View.read_apply]
  refine congrArg (V m c main_v0 : Vec F S8192x4096 .f32) (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * l.val = i.val; rw [e1, hi]; omega

/-- The weight block at point t, entry (q, l): row 1024 (t / 16 mod 16) + q, feature 256 (t mod 16) + l. -/
theorem iblk1_apply (c : Dev nD) (t : Fin cfg0.N) (q : Fin 1024) (l : Fin 256) (n : Fin 16384) (i : Fin 4096)
    (hn : n.val = 1024 * (t.val / 16 % 16) + q.val) (hi : i.val = 256 * (t.val % 16) + l.val) :
    (iblk m c 1 t : Vec F S1024x256 .f32) (ix2 q l) = (V m c main_arg1 : Vec F S16384x4096 .f32) (ix2 n i) := by
  obtain ⟨-, -, e0, e1, -⟩ := idx_facts t
  unfold iblk
  rw [View.read_apply]
  refine congrArg (V m c main_arg1 : Vec F S16384x4096 .f32) (funext fun a => Fin.ext ?_)
  match a with
  | ⟨0, _⟩ => show win0_1.index t (0 : Fin 2) * 1024 + 1 * q.val = n.val; rw [e0, hn]; omega
  | ⟨1, _⟩ => show win0_1.index t (1 : Fin 2) * 256 + 1 * l.val = i.val; rw [e1, hi]; omega

/-- The row-scale block at point t, entry (p, 0): the scale of row 2048 (t / 256) + p. -/
theorem iblk2_apply (c : Dev nD) (t : Fin cfg0.N) (p : Fin 2048) (r : Fin 8192)
    (hr : r.val = 2048 * (t.val / 256) + p.val) :
    (iblk m c 2 t : Vec F S2048x1 .f32) (ix2 p 0) = (V m c main_v6 : Vec F S8192x1 .f32) (ix2 r 0) := by
  obtain ⟨-, -, -, -, e0, e1, -⟩ := idx_facts t
  unfold iblk
  rw [View.read_apply]
  refine congrArg (V m c main_v6 : Vec F S8192x1 .f32) (funext fun a => Fin.ext ?_)
  match a with
  | ⟨0, _⟩ => show win0_2.index t (0 : Fin 2) * 2048 + 1 * p.val = r.val; rw [e0, hr]; omega
  | ⟨1, _⟩ => show win0_2.index t (1 : Fin 2) * 1 + 1 * 0 = 0; rw [e1]

/-- The weight-scale block at any point: the one entry of the [1, 1] array. -/
theorem iblk3_apply (c : Dev nD) (t : Fin cfg0.N) :
    (iblk m c 3 t : Vec F S1x1 .f32) (ix2 0 0) = (V m c main_v11 : Vec F S1x1 .f32) (ix2 0 0) := by
  obtain ⟨-, -, -, -, -, -, e0, e1, -⟩ := idx_facts t
  unfold iblk
  rw [View.read_apply]
  refine congrArg (V m c main_v11 : Vec F S1x1 .f32) (funext fun a => Fin.ext ?_)
  match a with
  | ⟨0, _⟩ => show win0_3.index t (0 : Fin 2) * 1 + 1 * 0 = 0; rw [e0]
  | ⟨1, _⟩ => show win0_3.index t (1 : Fin 2) * 1 + 1 * 0 = 0; rw [e1]

end Cert.KernelIdeal.Blocks

end
-- ==== Proof.Accum.lean ====
/-
  The accumulation across the reduction axis.

  Fix an entry (r, n) of the result and write g i for the product of the quantised activation (r, i) with the
  quantised weight (n, i).  A grid point t whose row-block and column-block contain (r, n) adds to that entry the sum of
  g over the 256 features of block t mod 16; the points of one (row-block, column-block) pair are consecutive, the
  first one (t mod 16 = 0) starting from the zero block.  So after point t the output block holds, at that entry, the
  running total  0 + B₀ + B₁ + … + B_{t mod 16}  of the block sums — by induction on the point: a starting point uses
  no earlier one, and a continuing point t has the same row-block and column-block as t − 1.
-/
import proofs.«109422_j16716012716233_1_alg».proof.Proof.BodyPieces
import proofs.«109422_j16716012716233_1_alg».proof.Proof.PayloadAt
import proofs.«109422_j16716012716233_1_alg».proof.Proof.Blocks

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.BitLinear Cert.Lib.BlockSum Cert.KernelIdeal.Body Cert.KernelIdeal.Blocks

variable (m : (ℓ : Loc nD τ sig) → Buf (Elt Ideal) ℓ)

/-- The product of the quantised activation (r, i) with the quantised weight (n, i), over the arrays the kernel is
    launched on: the activation matrix, the column of row scales, the weight matrix, the weight scale. -/
def gterm (c : Dev nD) (r : Fin 8192) (n : Fin 16384) (i : Fin 4096) : EReal :=
  qa ((V m c main_v0 : Vec Ideal S8192x4096 .f32) (ix2 r i)) ((V m c main_v6 : Vec Ideal S8192x1 .f32) (ix2 r 0))
    * qw ((V m c main_arg1 : Vec Ideal S16384x4096 .f32) (ix2 n i)) ((V m c main_v11 : Vec Ideal S1x1 .f32) (ix2 0 0))

/-- One point's store at entry (p, q) of the block: what the block held plus the block sum of step t mod 16 for the
    result entry (r, n) the block entry is. -/
theorem step (c : Dev nD) (t : Fin cfg0.N) (xo : Vec Ideal S2048x1024 .f32) (p : Fin 2048) (q : Fin 1024)
    (r : Fin 8192) (n : Fin 16384) (hr : r.val = 2048 * (t.val / 256) + p.val) (hn : n.val = 1024 * (t.val / 16 % 16) + q.val) :
    k0_pay2 (F := Ideal) (iblk m c 0 t) (iblk m c 1 t) (iblk m c 2 t) (iblk m c 3 t) xo (ix2 p q)
      = xo (ix2 p q) + blk 16 256 (by norm_num) (gterm m c r n) (t.val % 16) := by
  refine (pay2_apply (iblk m c 0 t) (iblk m c 1 t) (iblk m c 2 t) (iblk m c 3 t) xo p q).trans ?_
  refine congrArg (xo (ix2 p q) + ·) ?_
  rw [blk_of_lt 16 256 (by norm_num) (gterm m c r n) (Nat.mod_lt _ (by norm_num))]
  refine Finset.sum_congr rfl fun l _ => ?_
  unfold gterm
  exact congrArg₂ (· * ·)
    (congrArg₂ qa (iblk0_apply m c t p l r _ hr rfl) (iblk2_apply m c t p r hr))
    (congrArg₂ qw (iblk1_apply m c t q l n _ hn rfl) (iblk3_apply m c t))

/-- What the output block holds after point k, at entry (p, q): the running total of the block sums of the result
    entry (r, n) up to step k mod 16. -/
theorem outsAt_apply (c : Dev nD) : ∀ (k : ℕ) (h : k < cfg0.N) (p : Fin 2048) (q : Fin 1024) (r : Fin 8192) (n : Fin 16384),
    r.val = 2048 * (k / 256) + p.val → n.val = 1024 * (k / 16 % 16) + q.val →
    outsAt0 m c k h (ix2 p q) = chain (blk 16 256 (by norm_num) (gterm m c r n)) (k % 16)
  | 0, h, p, q, r, n, hr, hn => by
    rw [outsAt0_A m c ⟨0, h⟩ rfl, out_A]
    refine (step m c ⟨0, h⟩ (k0_pay1 (F := Ideal)) p q r n hr hn).trans ?_
    rw [pay1_apply]
    rfl
  | k + 1, h, p, q, r, n, hr, hn => by
    by_cases h0 : (k + 1) % 16 = 0
    · rw [outsAt0_A m c ⟨k + 1, h⟩ h0, out_A]
      refine (step m c ⟨k + 1, h⟩ (k0_pay1 (F := Ideal)) p q r n hr hn).trans ?_
      rw [pay1_apply]
      show (0 : EReal) + blk 16 256 _ (gterm m c r n) ((k + 1) % 16) = chain _ ((k + 1) % 16)
      rw [h0]
      rfl
    · rw [outsAt0_B m c ⟨k + 1, h⟩ h0, out_B]
      refine (step m c ⟨k + 1, h⟩ _ p q r n hr hn).trans ?_
      show outsAt0 m c k _ (ix2 p q) + blk 16 256 _ (gterm m c r n) ((k + 1) % 16) = chain _ ((k + 1) % 16)
      rw [outsAt_apply c k _ p q r n (by omega) (by omega)]
      have e : (k + 1) % 16 = k % 16 + 1 := by omega
      rw [e]
      rfl

end Cert.KernelIdeal.Accum

end
-- ==== Proof.KernelValue.lean ====
/-
  The kernel's result array, and its run.

  The output window is written back at the last reduction step of each (row-block, column-block) pair, when the
  running total has reached all 16 block sums; sixteen blocks of 256 features are the 4096 features, so the block
  written back holds, at each of its entries, the full inner product of the quantised activation row with the
  quantised weight row.  Those blocks tile the [8192, 16384] result (the point that covers entry (r, n) is the last
  step of row-block r / 2048 and column-block n / 1024), so the result array ends at that inner product everywhere, and
  the program's last operation reshapes it to [4, 2048, 16384].
-/
import proofs.«109422_j16716012716233_1_alg».proof.Proof.Accum
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.BitLinear Cert.Lib.BlockSum Cert.KernelIdeal.Blocks Cert.KernelIdeal.Accum

variable (m : (ℓ : Loc nD τ sig) → Buf (Elt Ideal) ℓ) (ρ : Dev nD → PrngReg)

/-- The [8192, 16384] result: entry (r, n) is the inner product, over the 4096 features, of the quantised activations
    of row r with the quantised weights of row n. -/
def Kres (c : Dev nD) : Vec Ideal S8192x16384 .f32 := fun i => ∑ k : Fin 4096, gterm m c (i 0) (i 1) k

/-- A point that writes the output window back writes the block of the result it covers. -/
theorem flushed_eq (c : Dev nD) (t : Fin cfg0.N) (hf : (cfg0.win 4).flush t = true) :
    (dats m 0 c).flushed 4 t = ((cfg0.win 4).blk t).view.read (Elt Ideal) (Kres m c) := by
  have hN : t.val < 1024 := lt_of_lt_of_eq t.isLt (show cfg0.N = 1024 from N_0)
  have h15 : t.val % 16 = 15 := (flush0_4 t).mp hf
  obtain ⟨-, -, -, -, -, -, -, -, e0, e1⟩ := idx_facts t
  show (cfg0.win 4).cut (grid0.coords t) ((dats m 0 c).after 4 t) = _
  rw [after0_4]
  funext (j : S2048x1024.Idx)
  obtain ⟨p, q, rfl⟩ : ∃ (p : Fin 2048) (q : Fin 1024), j = ix2 p q := ⟨j 0, j 1, eq_ix2 j⟩
  rw [View.read_apply]
  have hp : p.val < 2048 := p.isLt
  have hq : q.val < 1024 := q.isLt
  have hemb : ((cfg0.win 4).blk t).view.emb (ix2 p q)
      = (ix2 (⟨2048 * (t.val / 256) + p.val, by omega⟩ : Fin 8192) (⟨1024 * (t.val / 16 % 16) + q.val, by omega⟩ : Fin 16384) : S8192x16384.Idx) := by
    funext a
    apply Fin.ext
    match a with
    | ⟨0, _⟩ => show win0_4.index t (0 : Fin 2) * 2048 + 1 * p.val = 2048 * (t.val / 256) + p.val; rw [e0]; omega
    | ⟨1, _⟩ => show win0_4.index t (1 : Fin 2) * 1024 + 1 * q.val = 1024 * (t.val / 16 % 16) + q.val; rw [e1]; omega
  rw [hemb]
  show outsAt0 m c t.val t.isLt (ix2 p q) = ∑ k : Fin 4096, gterm m c ⟨2048 * (t.val / 256) + p.val, _⟩ ⟨1024 * (t.val / 16 % 16) + q.val, _⟩ k
  rw [outsAt_apply m c t.val t.isLt p q ⟨2048 * (t.val / 256) + p.val, by omega⟩ ⟨1024 * (t.val / 16 % 16) + q.val, by omega⟩ rfl rfl, h15]
  exact chain_blocks _

/-- An entry of the result lies in point t's block exactly when each coordinate lies in the block's range. -/
theorem mem_blk (t : Fin cfg0.N) (i : S8192x16384.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v12).slice (win0_4.rect t)).set ↔ _
  rw [View.set_slice_whole, Rect.mem_set_unit]
  exact Iff.rfl

/-- Every entry of the result is in the block some point writes back: the last reduction step of its row-block and
    column-block. -/
theorem cover (c : Dev nD) (i : S8192x16384.Idx) :
    ∃ t : Fin cfg0.N, (cfg0.win 4).flush t = true ∧ i ∈ ((cfg0.win 4).blk t).view.set := by
  have hN : cfg0.N = 1024 := N_0
  have h0 : (i 0).val < 8192 := (i 0).isLt
  have h1 : (i 1).val < 16384 := (i 1).isLt
  obtain ⟨t, ht⟩ : ∃ t : Fin cfg0.N, t.val = 256 * ((i 0).val / 2048) + 16 * ((i 1).val / 1024) + 15 :=
    ⟨⟨256 * ((i 0).val / 2048) + 16 * ((i 1).val / 1024) + 15, by rw [hN]; omega⟩, rfl⟩
  obtain ⟨-, -, -, -, -, -, -, -, e0, e1⟩ := idx_facts t
  refine ⟨t, (flush0_4 t).mpr (by omega), ?_⟩
  rw [mem_blk]
  intro a
  match a with
  | ⟨0, _⟩ => show win0_4.index t (0 : Fin 2) * 2048 ≤ (i 0).val ∧ (i 0).val < win0_4.index t (0 : Fin 2) * 2048 + 2048; rw [e0]; omega
  | ⟨1, _⟩ => show win0_4.index t (1 : Fin 2) * 1024 ≤ (i 1).val ∧ (i 1).val < win0_4.index t (1 : Fin 2) * 1024 + 1024; rw [e1]; omega

/-- The result array after the run. -/
theorem final (c : Dev nD) : (dats m 0 c).arrAt 4 cfg0.N = Kres m c :=
  (dats m 0 c).arrAt_eq_of_cover 4 (Kres m c) (flushed_eq m c) (cover c)

end Cert.KernelIdeal.Result

end
-- ==== Proof.KernelHost.lean ====
/-
  What the host computes before the launch: the arrays the kernel's windows read.

  The activations reshaped to a matrix [8192, 4096]; the column [8192, 1] of row scales, max(1e-5, row maximum of |x|)
  divided by 7; the weight scale max(1e-5, mean of |w|) reshaped to [1, 1].  The weights themselves are launched as
  they are.  The row maximum is a fold over 4096 features: the operations after it are read over it as a given array,
  and it is put in only at the end.
-/
import proofs.«109422_j16716012716233_1_alg».proof.Proof.Gen.KernelIdeal.Frame
import Idealize.ShloMosaic.Lib.StableHlo.Run
import Idealize.ShloMosaic.Lib.Pipeline.Value
import Idealize.ShloMosaic.PureOps.Ideal

set_option maxRecDepth 16384

noncomputable section

open Idealize.ShloMosaic Idealize.ShloMosaic.TcCoe Idealize.SL.Sem

namespace Cert.KernelIdeal.HostStages

open Cert.KernelIdeal Cert.KernelIdeal.Gen

variable {F : FTy → Type} [FloatOps F]

/-- The activations as a matrix: the two leading axes merged. -/
def actMat (x : FVec F S4x2048x4096 .f32) : FVec F S8192x4096 .f32 := shapeCast S8192x4096 x shapeCasts_S4x2048x4096_S8192x4096

/-- The maximum of |x| along each row of the matrix, from −inf. -/
def rowMax (X : FVec F S8192x4096 .f32) : FVec F S8192 .f32 :=
  Host.reduce FloatOps.maximumf (Host.absf X) (constant S_ .f32 0xFF800000#32) reducesTo_S8192x4096_S8192_d1 h_S_

/-- The scale column from a floor e and the column of row maxima: max(e, row maximum) / 7. -/
def scaleOf (e : FVec F S_ .f32) (col : FVec F S8192x1 .f32) : FVec F S8192x1 .f32 :=
  Host.divf (maximumf (broadcastInDim S8192x1 ![] bcast_S_S8192x1 (id e)) col)
    (broadcastInDim S8192x1 ![] bcast_S_S8192x1 (constant S_ .f32 0x40E00000#32))

/-- The column of row scales from the row maxima: max(1e-5, row maximum) / 7. -/
def actScale (rm : FVec F S8192 .f32) : FVec F S8192x1 .f32 :=
  scaleOf (constant S_ .f32 0x3727C5AC#32) (broadcastInDim S8192x1 ![0] bcast_S8192_S8192x1_0 rm)

/-- The weight scale: max(1e-5, mean of |w|), a rank-0 array. -/
def wScale (w : FVec F S16384x4096 .f32) : FVec F S_ .f32 :=
  maximumf (id (constant S_ .f32 0x3727C5AC#32))
    (Host.divf (Host.reduceAdd (Host.absf w) (constant S_ .f32 0x00000000#32) reducesTo_S16384x4096_S_d0_1 h_S_) (constant S_ .f32 0x4C800000#32))

/-- After the first stretch of host operations: the column of row maxima, -/
theorem pre_v3 (V₀ : Valuation τ sig (Elt F)) :
    (StableHlo.after hostOps0 V₀ (Proc.devRef .tc main_v3) : FVec F S8192x1 .f32)
      = broadcastInDim S8192x1 ![0] bcast_S8192_S8192x1_0 (rowMax (actMat (V₀ (Proc.devRef .tc main_arg0)))) := by
  simp only [Gen.hostOps0]
  after_results
  rfl

/-- and the floor 1e-5. -/
theorem pre_cst0 (V₀ : Valuation τ sig (Elt F)) :
    (StableHlo.after hostOps0 V₀ (Proc.devRef .tc main_cst_0) : FVec F S_ .f32) = constant S_ .f32 0x3727C5AC#32 := by
  simp only [Gen.hostOps0]
  after_results

/-- The remaining stretches, from any contents W: the column of row scales is a function of W's floor and column of
    row maxima. -/
theorem post_v6 (W : Valuation τ sig (Elt F)) :
    (StableHlo.after (hostOps0_1 ++ (hostOps0_2 ++ (hostOps0_3 ++ hostOps0_4))) W (Proc.devRef .tc main_v6) : FVec F S8192x1 .f32)
      = scaleOf (W (Proc.devRef .tc main_cst_0)) (W (Proc.devRef .tc main_v3)) := by
  simp only [Gen.hostOps0_1, Gen.hostOps0_2, Gen.hostOps0_3, Gen.hostOps0_4, List.cons_append, List.nil_append]
  after_results
  rfl

variable (m : (ℓ : Loc nD τ sig) → Buf (Elt F) ℓ)

/-- The activation window's array at the region's entry. -/
theorem V_v0 (c : Dev nD) : (V m c main_v0 : FVec F S8192x4096 .f32) = actMat (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The row-scale window's array at the region's entry. -/
theorem V_v6 (c : Dev nD) :
    (V m c main_v6 : FVec F S8192x1 .f32) = actScale (rowMax (actMat (m ((c : Thread nD τ).loc main_arg0)))) := by
  dsimp only [Gen.V, Gen.V0]
  simp only [List.flatten_cons, List.flatten_nil, List.append_nil]
  rw [StableHlo.after_append, post_v6, pre_v3, pre_cst0]
  rfl

/-- The weight-scale window's array at the region's entry. -/
theorem V_v11 (c : Dev nD) : (V m c main_v11 : FVec F S1x1 .f32) = shapeCast S1x1 (wScale (m ((c : Thread nD τ).loc main_arg1))) shapeCasts_S_S1x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.HostStages

end
-- ==== Proof.KernelRun.lean ====
/-
  The kernel's run, read: its result buffer ends at the [8192, 16384] result reshaped to [4, 2048, 16384], its
  arguments unchanged; and that result is a function of the two arguments alone — the activations as a matrix, their
  row scales, the weights, the weight scale.
-/
import proofs.«109422_j16716012716233_1_alg».proof.Proof.KernelValue
import proofs.«109422_j16716012716233_1_alg».proof.Proof.KernelHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.BitLinear Cert.KernelIdeal.Accum Cert.KernelIdeal.HostStages

variable (m : (ℓ : Loc nD τ sig) → Buf (Elt Ideal) ℓ) (ρ : Dev nD → PrngReg)

/-- The operation after the region reshapes the result array. -/
theorem tail_eq (c : Dev nD) :
    (Pipeline.afterTail₀ cfgs (dats m) 0 (V0 m) [hostOps1] c main_v13 : FVec Ideal S4x2048x16384 .f32)
      = shapeCast S4x2048x16384 (Kres m c) shapeCasts_S8192x16384_S4x2048x16384 := by
  unfold Pipeline.afterTail₀
  show StableHlo.after hostOps1 _ (Proc.devRef .tc main_v13) = _
  after_results
  rw [show Pipeline.withArrays (cfgs 0).spec c (V0 m c) (fun w => (dats m 0 c).arrAt w (cfgs 0).N) (Proc.devRef .tc main_v12) = Kres m c from
    (Pipeline.withArrays_arr spec0 launch0.win.arr_inj c _ _ 4).trans (final m c)]
  generalize Kres m c = K
  rfl

/-- The run: the result buffer at the reshaped result, the arguments unchanged. -/
theorem run : θ_run defs (onTc (τ := τ) (main (F := Ideal))) ⟨m, fun _ => 0, ρ⟩ fun r => ∀ c : Dev nD,
      r.2.mem ((c.tc : Thread nD τ).loc main_v13) = shapeCast S4x2048x16384 (Kres m c) shapeCasts_S8192x16384_S4x2048x16384
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

/-- The result as a function of the activations x and the weights w. -/
def resultOf (x : FVec Ideal S4x2048x4096 .f32) (w : FVec Ideal S16384x4096 .f32) : FVec Ideal S8192x16384 .f32 := fun i =>
  ∑ k : Fin 4096, qa (actMat x (ix2 (i 0) k)) (actScale (rowMax (actMat x)) (ix2 (i 0) 0))
    * qw (w (ix2 (i 1) k)) (shapeCast S1x1 (wScale w) shapeCasts_S_S1x1 (ix2 0 0))

/-- The kernel's result is that function of its two arguments' launch contents. -/
theorem Kres_eq (c : Dev nD) :
    Kres m c = resultOf (m ((c : Thread nD τ).loc main_arg0)) (m ((c : Thread nD τ).loc main_arg1)) := by
  unfold Kres resultOf gterm
  rw [V_v0 m c, V_v6 m c, V_v11 m c, V_main_arg1 m c]

end Cert.KernelIdeal.Result

end
-- ==== Proof.RefStages.lean ====
/-
  The reference, stage by stage, and each stage read at an entry over the extended reals.

  The reference computes, for the activations x [4, 2048, 4096] and the weights w [16384, 4096]:
    the row maximum of |x| along the features, floored at 1e-5 and divided by 7: the activation scale of each row;
    the quantised activations qa x s, and the straight-through form  x + (qa x s − x);
    the mean of |w|, floored at 1e-5: the one weight scale; the quantised weights qw w t and  w + (qw w t − w);
    and the contraction of the two straight-through arrays over the features.
  The two reductions (a maximum along a row, a sum over all weights) are folds over thousands of entries; every later
  stage is stated over their results as given arrays, so that reading it at an entry unfolds one operation there and
  nothing more.  The scalar constants are broadcasts of a rank-0 array and read as their one value.
-/
import proofs.«109422_j16716012716233_1_alg».proof.Proof.Gen.ReferenceIdeal
import proofs.«109422_j16716012716233_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.Stages

open Cert.ReferenceIdeal Cert.ReferenceIdeal.Gen Cert.BitLinear

variable {F : FTy → Type} [FloatOps F]

/-- The maximum of |x| along each row's features, from −inf. -/
def rowMax (x : FVec F S4x2048x4096 .f32) : FVec F S4x2048 .f32 :=
  Host.reduce FloatOps.maximumf (Host.absf x) (constant S_ .f32 0xFF800000#32) reducesTo_S4x2048x4096_S4x2048_d2 h_S_

/-- The activation scale of each row from the row maxima: max(1e-5, row maximum) / 7, kept as a [4, 2048, 1] column. -/
def actScale (rm : FVec F S4x2048 .f32) : FVec F S4x2048x1 .f32 :=
  Host.divf (maximumf (broadcastInDim S4x2048x1 ![] bcast_S_S4x2048x1 (id (constant S_ .f32 0x3727C5AC#32)))
      (broadcastInDim S4x2048x1 ![0, 1] bcast_S4x2048_S4x2048x1_0_1 rm))
    (broadcastInDim S4x2048x1 ![] bcast_S_S4x2048x1 (constant S_ .f32 0x40E00000#32))

/-- The quantised activations for a column s of row scales: round x / s, clamp to [−8, 7], times s. -/
def actQ (x : FVec F S4x2048x4096 .f32) (s : FVec F S4x2048x1 .f32) : FVec F S4x2048x4096 .f32 :=
  mulf (minimumf (broadcastInDim S4x2048x4096 ![] bcast_S_S4x2048x4096 (id (constant S_ .f32 0x40E00000#32)))
      (maximumf (broadcastInDim S4x2048x4096 ![] bcast_S_S4x2048x4096 (id (constant S_ .f32 0xC1000000#32)))
        (Host.roundeven (Host.divf x (broadcastInDim S4x2048x4096 ![0, 1, 2] bcast_S4x2048x1_S4x2048x4096_0_1_2 s)))))
    (broadcastInDim S4x2048x4096 ![0, 1, 2] bcast_S4x2048x1_S4x2048x4096_0_1_2 s)

/-- The straight-through activations x + (q − x). -/
def actST (x : FVec F S4x2048x4096 .f32) (s : FVec F S4x2048x1 .f32) : FVec F S4x2048x4096 .f32 := addf x (subf (actQ x s) x)

/-- The weight scale: max(1e-5, mean of |w|), a rank-0 array. -/
def wScale (w : FVec F S16384x4096 .f32) : FVec F S_ .f32 :=
  maximumf (id (constant S_ .f32 0x3727C5AC#32))
    (Host.divf (Host.reduceAdd (Host.absf w) (constant S_ .f32 0x00000000#32) reducesTo_S16384x4096_S_d0_1 h_S_) (constant S_ .f32 0x4C800000#32))

/-- The quantised weights for a scale t: round w / t, clamp to [−1, 1], times t. -/
def wQ (w : FVec F S16384x4096 .f32) (t : FVec F S_ .f32) : FVec F S16384x4096 .f32 :=
  mulf (minimumf (broadcastInDim S16384x4096 ![] bcast_S_S16384x4096 (id (constant S_ .f32 0x3F800000#32)))
      (maximumf (broadcastInDim S16384x4096 ![] bcast_S_S16384x4096 (id (constant S_ .f32 0xBF800000#32)))
        (Host.roundeven (Host.divf w (broadcastInDim S16384x4096 ![] bcast_S_S16384x4096 t)))))
    (broadcastInDim S16384x4096 ![] bcast_S_S16384x4096 t)

/-- The straight-through weights w + (q − w). -/
def wST (w : FVec F S16384x4096 .f32) (t : FVec F S_ .f32) : FVec F S16384x4096 .f32 := addf w (subf (wQ w t) w)

/-- The reference's result from the activations, their row maxima and the weights: the two straight-through arrays
    contracted over the features. -/
def refOut (x : FVec F S4x2048x4096 .f32) (rm : FVec F S4x2048 .f32) (w : FVec F S16384x4096 .f32) : FVec F S4x2048x16384 .f32 :=
  Host.dotGeneral dot_S4x2048x4096_S16384x4096_S4x2048x16384_2_1_01_0_n_n none (actST x (actScale rm)) (wST w (wScale w))

/-! ## Read at an entry, over the extended reals -/

/-- A rank-0 array broadcast to any shape reads as its one value. -/
theorem scalar_bcast {t : Shape} (dims : Fin S_.rank → Fin t.rank) (h : S_.BroadcastsInDim t dims) (v : FVec Ideal S_ .f32) (j : t.Idx) :
    broadcastInDim t dims h v j = v ix0 :=
  broadcastInDim_apply dims h v j ix0 (fun a => a.elim0)

/-- The column of activation scales broadcast along the features reads as the row's scale. -/
theorem col_bcast (s : FVec Ideal S4x2048x1 .f32) (b : Fin 4) (r : Fin 2048) (k : Fin 4096) :
    broadcastInDim S4x2048x4096 ![0, 1, 2] bcast_S4x2048x1_S4x2048x4096_0_1_2 s (ix3 b r k) = s (ix3 b r 0) :=
  broadcastInDim_apply _ bcast_S4x2048x1_S4x2048x4096_0_1_2 s (ix3 b r k) (ix3 b r 0) (fun a => match a with
    | ⟨0, _⟩ => by show b.val = if (4 : Nat) = 1 then 0 else b.val; rw [if_neg (by decide)]
    | ⟨1, _⟩ => by show r.val = if (2048 : Nat) = 1 then 0 else r.val; rw [if_neg (by decide)]
    | ⟨2, _⟩ => by show (0 : Nat) = if (1 : Nat) = 1 then 0 else k.val; rw [if_pos rfl])

/-- The row maxima kept as a column read as the row maximum. -/
theorem keep_bcast (v : FVec Ideal S4x2048 .f32) (b : Fin 4) (r : Fin 2048) :
    broadcastInDim S4x2048x1 ![0, 1] bcast_S4x2048_S4x2048x1_0_1 v (ix3 b r 0) = v (ix2 b r) :=
  broadcastInDim_apply _ bcast_S4x2048_S4x2048x1_0_1 v (ix3 b r 0) (ix2 b r) (fun a => match a with
    | ⟨0, _⟩ => by show b.val = if (4 : Nat) = 1 then 0 else b.val; rw [if_neg (by decide)]
    | ⟨1, _⟩ => by show r.val = if (2048 : Nat) = 1 then 0 else r.val; rw [if_neg (by decide)])

/-- The activation scale of row (b, r). -/
theorem actScale_apply (rm : FVec Ideal S4x2048 .f32) (b : Fin 4) (r : Fin 2048) :
    actScale rm (ix3 b r 0) = Ideal.div (max (Ideal.ofBits .f32 0x3727C5AC#32) (rm (ix2 b r))) (Ideal.ofBits .f32 0x40E00000#32) := by
  unfold actScale
  show Ideal.div (max (broadcastInDim S4x2048x1 ![] bcast_S_S4x2048x1 (id (constant (F := Ideal) S_ .f32 0x3727C5AC#32)) (ix3 b r 0))
      (broadcastInDim S4x2048x1 ![0, 1] bcast_S4x2048_S4x2048x1_0_1 rm (ix3 b r 0)))
    (broadcastInDim S4x2048x1 ![] bcast_S_S4x2048x1 (constant (F := Ideal) S_ .f32 0x40E00000#32) (ix3 b r 0)) = _
  rw [scalar_bcast, scalar_bcast, keep_bcast]
  rfl

/-- The straight-through activation at (b, r, k). -/
theorem actST_apply (x : FVec Ideal S4x2048x4096 .f32) (s : FVec Ideal S4x2048x1 .f32) (b : Fin 4) (r : Fin 2048) (k : Fin 4096) :
    actST x s (ix3 b r k) = x (ix3 b r k) + (qa (x (ix3 b r k)) (s (ix3 b r 0)) - x (ix3 b r k)) := by
  unfold actST actQ
  show x (ix3 b r k) + (min (broadcastInDim S4x2048x4096 ![] bcast_S_S4x2048x4096 (id (constant (F := Ideal) S_ .f32 0x40E00000#32)) (ix3 b r k))
      (max (broadcastInDim S4x2048x4096 ![] bcast_S_S4x2048x4096 (id (constant (F := Ideal) S_ .f32 0xC1000000#32)) (ix3 b r k))
        (Ideal.liftRound Ideal.roundHalfEven (Ideal.div (x (ix3 b r k))
          (broadcastInDim S4x2048x4096 ![0, 1, 2] bcast_S4x2048x1_S4x2048x4096_0_1_2 s (ix3 b r k)))))
      * broadcastInDim S4x2048x4096 ![0, 1, 2] bcast_S4x2048x1_S4x2048x4096_0_1_2 s (ix3 b r k) - x (ix3 b r k)) = _
  rw [scalar_bcast, scalar_bcast, col_bcast]
  rfl

/-- The straight-through weight at (n, k). -/
theorem wST_apply (w : FVec Ideal S16384x4096 .f32) (t : FVec Ideal S_ .f32) (n : Fin 16384) (k : Fin 4096) :
    wST w t (ix2 n k) = w (ix2 n k) + (qw (w (ix2 n k)) (t ix0) - w (ix2 n k)) := by
  unfold wST wQ
  show w (ix2 n k) + (min (broadcastInDim S16384x4096 ![] bcast_S_S16384x4096 (id (constant (F := Ideal) S_ .f32 0x3F800000#32)) (ix2 n k))
      (max (broadcastInDim S16384x4096 ![] bcast_S_S16384x4096 (id (constant (F := Ideal) S_ .f32 0xBF800000#32)) (ix2 n k))
        (Ideal.liftRound Ideal.roundHalfEven (Ideal.div (w (ix2 n k))
          (broadcastInDim S16384x4096 ![] bcast_S_S16384x4096 t (ix2 n k)))))
      * broadcastInDim S16384x4096 ![] bcast_S_S16384x4096 t (ix2 n k) - w (ix2 n k)) = _
  rw [scalar_bcast, scalar_bcast, scalar_bcast]
  rfl

end Cert.ReferenceIdeal.Stages

end
-- ==== Proof.RefRead.lean ====
/-
  The reference's result read at an entry.

  The contraction of A [4, 2048, 4096] with B [16384, 4096] over the features, read at (b, r, n), is
  Σ_k A[b, r, k] · B[n, k].  With the straight-through arrays for A and B, and activations and weights that are real
  numbers, each factor x + (q − x) is q, so the reference's entry is the inner product of the quantised activations of
  row (b, r) with the quantised weights of row n.
-/
import proofs.«109422_j16716012716233_1_alg».proof.Proof.RefStages

noncomputable section

open Idealize.ShloMosaic Idealize.ShloMosaic.ValueIdx

namespace Cert.ReferenceIdeal.Stages

open Cert.ReferenceIdeal Cert.ReferenceIdeal.Gen Cert.BitLinear

/-- The left operand's index at output i and contraction position q: the two leading coordinates are i's, -/
theorem lhs_ax0 (i : S4x2048x16384.Idx) (q : dot_S4x2048x4096_S16384x4096_S4x2048x16384_2_1_01_0_n_n.contr.Idx) : (dot_S4x2048x4096_S16384x4096_S4x2048x16384_2_1_01_0_n_n.lhsIdx i q 0).val = (i 0).val := by
  unfold DotDims.lhsIdx
  rw [dif_neg (show ¬(0 : Fin S4x2048x4096.rank) ∈ dot_S4x2048x4096_S16384x4096_S4x2048x16384_2_1_01_0_n_n.lhsBatch by decide),
    dif_pos (show (0 : Fin S4x2048x4096.rank) ∈ dot_S4x2048x4096_S16384x4096_S4x2048x16384_2_1_01_0_n_n.lhsNonContracting by decide)]
  rfl
theorem lhs_ax1 (i : S4x2048x16384.Idx) (q : dot_S4x2048x4096_S16384x4096_S4x2048x16384_2_1_01_0_n_n.contr.Idx) : (dot_S4x2048x4096_S16384x4096_S4x2048x16384_2_1_01_0_n_n.lhsIdx i q 1).val = (i 1).val := by
  unfold DotDims.lhsIdx
  rw [dif_neg (show ¬(1 : Fin S4x2048x4096.rank) ∈ dot_S4x2048x4096_S16384x4096_S4x2048x16384_2_1_01_0_n_n.lhsBatch by decide),
    dif_pos (show (1 : Fin S4x2048x4096.rank) ∈ dot_S4x2048x4096_S16384x4096_S4x2048x16384_2_1_01_0_n_n.lhsNonContracting by decide)]
  rfl
/-- the last is the contraction position; -/
theorem lhs_ax2 (i : S4x2048x16384.Idx) (q : dot_S4x2048x4096_S16384x4096_S4x2048x16384_2_1_01_0_n_n.contr.Idx) : (dot_S4x2048x4096_S16384x4096_S4x2048x16384_2_1_01_0_n_n.lhsIdx i q 2).val = (q ⟨0, by decide⟩).val :=
  dot_S4x2048x4096_S16384x4096_S4x2048x16384_2_1_01_0_n_n.lhsIdx_val_of_single rfl i q
/-- the right operand's: i's last coordinate, then the contraction position. -/
theorem rhs_ax0 (i : S4x2048x16384.Idx) (q : dot_S4x2048x4096_S16384x4096_S4x2048x16384_2_1_01_0_n_n.contr.Idx) : (dot_S4x2048x4096_S16384x4096_S4x2048x16384_2_1_01_0_n_n.rhsIdx i q 0).val = (i 2).val := by
  unfold DotDims.rhsIdx
  rw [dif_neg (show ¬(0 : Fin S16384x4096.rank) ∈ dot_S4x2048x4096_S16384x4096_S4x2048x16384_2_1_01_0_n_n.rhsBatch by decide),
    dif_pos (show (0 : Fin S16384x4096.rank) ∈ dot_S4x2048x4096_S16384x4096_S4x2048x16384_2_1_01_0_n_n.rhsNonContracting by decide)]
  rfl
theorem rhs_ax1 (i : S4x2048x16384.Idx) (q : dot_S4x2048x4096_S16384x4096_S4x2048x16384_2_1_01_0_n_n.contr.Idx) : (dot_S4x2048x4096_S16384x4096_S4x2048x16384_2_1_01_0_n_n.rhsIdx i q 1).val = (q ⟨0, by decide⟩).val :=
  dot_S4x2048x4096_S16384x4096_S4x2048x16384_2_1_01_0_n_n.rhsIdx_val_of_single rfl i q

/-- The contraction over the features at (b, r, n): the inner product of row (b, r) of A with row n of B. -/
theorem dot_apply (A : FVec Ideal S4x2048x4096 .f32) (B : FVec Ideal S16384x4096 .f32) (b : Fin 4) (r : Fin 2048) (n : Fin 16384) :
    Host.dotGeneral dot_S4x2048x4096_S16384x4096_S4x2048x16384_2_1_01_0_n_n none A B (ix3 b r n) = ∑ k : Fin 4096, A (ix3 b r k) * B (ix2 n k) := by
  simp only [Host.dotGeneral]
  rw [Ideal.dotGeneral_apply, ← Equiv.sum_comp (contrEquiv1 dot_S4x2048x4096_S16384x4096_S4x2048x16384_2_1_01_0_n_n 4096 rfl rfl).symm]
  refine Finset.sum_congr rfl fun k _ => ?_
  have hk := contrEquiv1_symm_val dot_S4x2048x4096_S16384x4096_S4x2048x16384_2_1_01_0_n_n 4096 rfl rfl k
  have el : dot_S4x2048x4096_S16384x4096_S4x2048x16384_2_1_01_0_n_n.lhsIdx (ix3 b r n) ((contrEquiv1 dot_S4x2048x4096_S16384x4096_S4x2048x16384_2_1_01_0_n_n 4096 rfl rfl).symm k) = ix3 b r k := funext fun a => Fin.ext (by
    match a with
    | ⟨0, _⟩ => exact lhs_ax0 _ _
    | ⟨1, _⟩ => exact lhs_ax1 _ _
    | ⟨2, _⟩ => exact (lhs_ax2 _ _).trans hk)
  have er : dot_S4x2048x4096_S16384x4096_S4x2048x16384_2_1_01_0_n_n.rhsIdx (ix3 b r n) ((contrEquiv1 dot_S4x2048x4096_S16384x4096_S4x2048x16384_2_1_01_0_n_n 4096 rfl rfl).symm k) = ix2 n k := funext fun a => Fin.ext (by
    match a with
    | ⟨0, _⟩ => exact rhs_ax0 _ _
    | ⟨1, _⟩ => exact (rhs_ax1 _ _).trans hk)
  rw [el, er]

/-- The reference's entry (b, r, n) for real activations and weights: the inner product of the quantised activations
    of row (b, r) — at that row's scale — with the quantised weights of row n — at the weight scale. -/
theorem refOut_apply (x : FVec Ideal S4x2048x4096 .f32) (rm : FVec Ideal S4x2048 .f32) (w : FVec Ideal S16384x4096 .f32)
    (hx : ∀ i, ∃ v : ℝ, x i = (v : EReal)) (hw : ∀ i, ∃ v : ℝ, w i = (v : EReal)) (b : Fin 4) (r : Fin 2048) (n : Fin 16384) :
    refOut x rm w (ix3 b r n)
      = ∑ k : Fin 4096, qa (x (ix3 b r k)) (actScale rm (ix3 b r 0)) * qw (w (ix2 n k)) (wScale w ix0) := by
  unfold refOut
  generalize actScale rm = s
  generalize wScale w = t
  rw [dot_apply]
  refine Finset.sum_congr rfl fun k _ => ?_
  rw [actST_apply, wST_apply]
  obtain ⟨xv, hxv⟩ := hx (ix3 b r k)
  obtain ⟨wv, hwv⟩ := hw (ix2 n k)
  rw [hxv, hwv, straight_through, straight_through]

end Cert.ReferenceIdeal.Stages

end
-- ==== Proof.LibMergeAxes.lean ====
/-
  A reusable lemma: a reshape that merges, or splits, the two leading axes, read at an entry.

  Reshaping [a, b, c] to [n, c] with n = a·b keeps the row-major order, so entry (r, q) of the result is entry (p, t, q)
  of the operand exactly when r = p·b + t; reshaping [n, c] back to [a, b, c] reads the other way round.  Generic in the
  extents and in the element type; the caller supplies the row r and the equation r = p·b + t.
-/
import Idealize.ShloMosaic.Lib.Pipeline.Value
import Idealize.ShloMosaic.Lib.ValueIdx

noncomputable section

namespace Cert.MergeAxes

open Idealize.ShloMosaic Idealize.ShloMosaic.ValueIdx

variable {α : Type} {a b c n : ℕ}

/-- Merging the two leading axes: row p·b + t of the result is row (p, t) of the operand. -/
theorem merge_apply (x : (⟨3, ![a, b, c]⟩ : Shape).Idx → α) (h : (⟨3, ![a, b, c]⟩ : Shape).ShapeCasts ⟨2, ![n, c]⟩)
    (p : Fin a) (t : Fin b) (q : Fin c) (r : Fin n) (hr : r.val = p.val * b + t.val) :
    shapeCast ⟨2, ![n, c]⟩ x h (ix2 r q) = x (ix3 p t q) := by
  refine shapeCast_apply x h (ix2 r q) (ix3 p t q) ?_
  rw [Shape.rowMajor_val_three, Shape.rowMajor_val_two]
  show (p.val * b + t.val) * c + q.val = r.val * c + q.val
  rw [hr]

/-- Splitting the leading axis in two: row (p, t) of the result is row p·b + t of the operand. -/
theorem split_apply (y : (⟨2, ![n, c]⟩ : Shape).Idx → α) (h : (⟨2, ![n, c]⟩ : Shape).ShapeCasts ⟨3, ![a, b, c]⟩)
    (p : Fin a) (t : Fin b) (q : Fin c) (r : Fin n) (hr : r.val = p.val * b + t.val) :
    shapeCast ⟨3, ![a, b, c]⟩ y h (ix3 p t q) = y (ix2 r q) := by
  refine shapeCast_apply y h (ix3 p t q) (ix2 r q) ?_
  rw [Shape.rowMajor_val_three, Shape.rowMajor_val_two]
  show r.val * c + q.val = (p.val * b + t.val) * c + q.val
  rw [hr]

end Cert.MergeAxes

end
-- ==== Proof.Bridge.lean ====
/-
  The two programs compute one function.

  Row r = 2048 b + s of the activation matrix is row (b, s) of the activations (the reshape keeps row-major order), so
  its maximum of |x| is the same fold over the same 4096 entries, and its scale max(1e-5, ·) / 7 is the same number;
  the weight scale is literally the same term in both programs.  Hence entry (b, s, n) of the kernel's reshaped result,
  the inner product of the quantised activations of row 2048 b + s with the quantised weights of row n, is the
  reference's entry — whose straight-through factors x + (q − x) are q because activations and weights are real.
-/
import proofs.«109422_j16716012716233_1_alg».proof.Proof.KernelRun
import proofs.«109422_j16716012716233_1_alg».proof.Proof.RefRead
import proofs.«109422_j16716012716233_1_alg».proof.Proof.LibMergeAxes

noncomputable section

open Idealize.ShloMosaic Idealize.ShloMosaic.ValueIdx

namespace Cert.Bridge

open Cert.BitLinear

/-- The weight scale is one term in both programs. -/
theorem wScale_eq {F : FTy → Type} [FloatOps F] (w : FVec F Cert.KernelIdeal.S16384x4096 .f32) :
    Cert.KernelIdeal.HostStages.wScale w = Cert.ReferenceIdeal.Stages.wScale w := rfl

/-- Two folds of one operation over the 4096 features from equal starts of equal entries are equal. -/
theorem fold_congr {α : Type} (op : α → α → α) [Std.Commutative op] [Std.Associative op] (i1 i2 : α) (g1 g2 : Fin 4096 → α)
    (hi : i1 = i2) (hg : ∀ k, g1 k = g2 k) :
    (Finset.univ : Finset (Fin 4096)).fold op i1 g1 = (Finset.univ : Finset (Fin 4096)).fold op i2 g2 := by
  subst hi
  rw [funext hg]

/-- The row maximum of row 2048 b + s of the activation matrix is the row maximum of row (b, s) of the activations. -/
theorem rowMax_eq (x : FVec Ideal Cert.ReferenceIdeal.S4x2048x4096 .f32) (b : Fin 4) (s : Fin 2048) (R : Fin 8192)
    (hR : R.val = b.val * 2048 + s.val) :
    Cert.KernelIdeal.HostStages.rowMax (Cert.KernelIdeal.HostStages.actMat x) (ix1 R) = Cert.ReferenceIdeal.Stages.rowMax x (ix2 b s) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have hK : Cert.KernelIdeal.S8192x4096.Reduces [1] Cert.KernelIdeal.S8192 := by decide
  have hRf : Cert.ReferenceIdeal.S4x2048x4096.Reduces [2] Cert.ReferenceIdeal.S4x2048 := by decide
  unfold Cert.KernelIdeal.HostStages.rowMax Cert.ReferenceIdeal.Stages.rowMax
  refine (Host.reduce_eq_fold_single FloatOps.maximumf _ _ _ hK _ (ix1 R)).trans ?_
  refine Eq.trans ?_ (Host.reduce_eq_fold_single FloatOps.maximumf _ _ _ hRf _ (ix2 b s)).symm
  refine fold_congr _ _ _ _ _ rfl fun k => ?_
  show FloatOps.hostAbsf (Cert.KernelIdeal.HostStages.actMat x (hK.lift (ix1 R) k)) = FloatOps.hostAbsf (x (hRf.lift (ix2 b s) k))
  have e1 : hK.lift (ix1 R) k = ix2 R k := funext fun a => Fin.ext (by
    match a with
    | ⟨0, _⟩ => rfl
    | ⟨1, _⟩ => rfl)
  have e2 : hRf.lift (ix2 b s) k = ix3 b s k := funext fun a => Fin.ext (by
    match a with
    | ⟨0, _⟩ => rfl
    | ⟨1, _⟩ => rfl
    | ⟨2, _⟩ => rfl)
  rw [e1, e2]
  exact congrArg FloatOps.hostAbsf (Cert.MergeAxes.merge_apply x _ b s k R hR)

/-- The scale of row R of the matrix, from the row maxima. -/
theorem kActScale_apply (rm : FVec Ideal Cert.KernelIdeal.S8192 .f32) (R : Fin 8192) :
    Cert.KernelIdeal.HostStages.actScale rm (ix2 R 0)
      = Ideal.div (max (Ideal.ofBits .f32 0x3727C5AC#32) (rm (ix1 R))) (Ideal.ofBits .f32 0x40E00000#32) := by
  unfold Cert.KernelIdeal.HostStages.actScale Cert.KernelIdeal.HostStages.scaleOf
  show Ideal.div (max (broadcastInDim Cert.KernelIdeal.S8192x1 ![] Cert.KernelIdeal.Facts₀.bcast_S_S8192x1 (id (constant (F := Ideal) Cert.KernelIdeal.S_ .f32 0x3727C5AC#32)) (ix2 R 0))
      (broadcastInDim Cert.KernelIdeal.S8192x1 ![0] Cert.KernelIdeal.Facts₀.bcast_S8192_S8192x1_0 rm (ix2 R 0)))
    (broadcastInDim Cert.KernelIdeal.S8192x1 ![] Cert.KernelIdeal.Facts₀.bcast_S_S8192x1 (constant (F := Ideal) Cert.KernelIdeal.S_ .f32 0x40E00000#32) (ix2 R 0)) = _
  rw [broadcastInDim_apply _ Cert.KernelIdeal.Facts₀.bcast_S_S8192x1 _ (ix2 R 0) ix0 (fun a => a.elim0),
    broadcastInDim_apply _ Cert.KernelIdeal.Facts₀.bcast_S_S8192x1 _ (ix2 R 0) ix0 (fun a => a.elim0),
    broadcastInDim_apply _ Cert.KernelIdeal.Facts₀.bcast_S8192_S8192x1_0 rm (ix2 R 0) (ix1 R) (fun a => match a with
      | ⟨0, _⟩ => by show R.val = if (8192 : Nat) = 1 then 0 else R.val; rw [if_neg (by decide)])]
  rfl

/-- The [1, 1] weight scale reads as the weight scale. -/
theorem kWScale_apply (t : FVec Ideal Cert.KernelIdeal.S_ .f32) :
    shapeCast Cert.KernelIdeal.S1x1 t Cert.KernelIdeal.Facts₀.shapeCasts_S_S1x1 (ix2 0 0) = t ix0 := by
  unfold shapeCast
  exact congrArg t (funext fun a => a.elim0)

/-- The kernel's reshaped result is the reference's result, for real activations and weights. -/
theorem result_eq (x : FVec Ideal Cert.ReferenceIdeal.S4x2048x4096 .f32) (w : FVec Ideal Cert.ReferenceIdeal.S16384x4096 .f32)
    (hx : ∀ i, ∃ v : ℝ, x i = (v : EReal)) (hw : ∀ i, ∃ v : ℝ, w i = (v : EReal)) :
    shapeCast Cert.KernelIdeal.S4x2048x16384 (Cert.KernelIdeal.Result.resultOf x w) Cert.KernelIdeal.Facts₀.shapeCasts_S8192x16384_S4x2048x16384
      = Cert.ReferenceIdeal.Stages.refOut x (Cert.ReferenceIdeal.Stages.rowMax x) w := by
  funext i
  obtain ⟨b, s, n, rfl⟩ : ∃ (b : Fin 4) (s : Fin 2048) (n : Fin 16384), i = ix3 b s n := ⟨i 0, i 1, i 2, eq_ix3 i⟩
  have hlt : b.val * 2048 + s.val < 8192 := by have := b.isLt; have := s.isLt; omega
  rw [Cert.MergeAxes.split_apply (Cert.KernelIdeal.Result.resultOf x w) _ b s n ⟨b.val * 2048 + s.val, hlt⟩ rfl,
    Cert.ReferenceIdeal.Stages.refOut_apply x _ w hx hw b s n]
  show ∑ k : Fin 4096, qa (Cert.KernelIdeal.HostStages.actMat x (ix2 ⟨b.val * 2048 + s.val, hlt⟩ k))
        (Cert.KernelIdeal.HostStages.actScale (Cert.KernelIdeal.HostStages.rowMax (Cert.KernelIdeal.HostStages.actMat x)) (ix2 ⟨b.val * 2048 + s.val, hlt⟩ 0))
      * qw (w (ix2 n k)) (shapeCast Cert.KernelIdeal.S1x1 (Cert.KernelIdeal.HostStages.wScale w) Cert.KernelIdeal.Facts₀.shapeCasts_S_S1x1 (ix2 0 0)) = _
  rw [kActScale_apply, rowMax_eq x b s ⟨b.val * 2048 + s.val, hlt⟩ rfl, kWScale_apply, wScale_eq,
    Cert.ReferenceIdeal.Stages.actScale_apply]
  refine Finset.sum_congr rfl fun k _ => ?_
  rw [show Cert.KernelIdeal.HostStages.actMat x (ix2 ⟨b.val * 2048 + s.val, hlt⟩ k) = x (ix3 b s k) from
    Cert.MergeAxes.merge_apply x _ b s k ⟨b.val * 2048 + s.val, hlt⟩ rfl]

end Cert.Bridge

end
-- ==== Proof.RefRun.lean ====
/-
  The reference's run, read back.

  The reference is a straight line of 50 host operations.  Every weakly fair execution of it terminates with each buffer
  at what the operations, applied in order to the launch contents, leave there.  The result buffer is read in two
  steps: the first three operations compute the row maxima of |x| (a fold along the features); the remaining 47 are
  read from the contents those three leave, whatever they are, as the staged function of the activations, the row
  maxima and the weights; then the row maxima are put in.
-/
import proofs.«109422_j16716012716233_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The first three operations: |x|, the −inf the fold starts from, the row maxima. -/
abbrev opsA : List (HloOp τ sig (Elt F)) :=
  [ unary main_arg0 main_v0 (Host.absf : (⟨S4x2048x4096, .f32⟩ : BufTy).Contents (Elt F) → (⟨S4x2048x4096, .f32⟩ : BufTy).Contents (Elt F)),
    nullary main_cst (constant S_ .f32 0xFF800000#32),
    binary main_v0 main_cst main_v1 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)) ]

/-- The other 47, in order (an outlined function's operations stand in its call's place). -/
abbrev opsB : List (HloOp τ sig (Elt F)) :=
  [ unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x2048x1, .f32⟩) main_call0_v1) (broadcastInDim S4x2048x1 ![] bcast_S_S4x2048x1),
    TRef.binary (TRef.of (T := ⟨S4x2048x1, .f32⟩) main_call0_v1) (TRef.of (T := ⟨S4x2048x1, .f32⟩) main_v2) (TRef.of (T := ⟨S4x2048x1, .f32⟩) main_v3) maximumf,
    nullary main_cst_1 (constant S_ .f32 0x40E00000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v3 main_v4 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v6 main_v7 (Host.divf : (⟨S4x2048x4096, .f32⟩ : BufTy).Contents (Elt F) → (⟨S4x2048x4096, .f32⟩ : BufTy).Contents (Elt F) → (⟨S4x2048x4096, .f32⟩ : BufTy).Contents (Elt F)),
    TRef.unary (TRef.of (T := ⟨S4x2048x4096, .f32⟩) main_v7) (TRef.of (T := ⟨S4x2048x4096, .f32⟩) main_v8) Host.roundeven,
    nullary main_cst_2 (constant S_ .f32 0xC1000000#32),
    nullary main_cst_3 (constant S_ .f32 0x40E00000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S4x2048x4096, .f32⟩) main_call2_v1) (broadcastInDim S4x2048x4096 ![] bcast_S_S4x2048x4096),
    TRef.binary (TRef.of (T := ⟨S4x2048x4096, .f32⟩) main_call2_v1) (TRef.of (T := ⟨S4x2048x4096, .f32⟩) main_v8) (TRef.of (T := ⟨S4x2048x4096, .f32⟩) main_call2_v2) maximumf,
    TRef.unary (TRef.of (T := ⟨S_, .f32⟩) main_cst_3) (TRef.of (T := ⟨S_, .f32⟩) main_call2_v3) id,
    TRef.unary (TRef.of (T := ⟨S_, .f32⟩) main_call2_v3) (TRef.of (T := ⟨S4x2048x4096, .f32⟩) main_call2_v4) (broadcastInDim S4x2048x4096 ![] bcast_S_S4x2048x4096),
    TRef.binary (TRef.of (T := ⟨S4x2048x4096, .f32⟩) main_call2_v4) (TRef.of (T := ⟨S4x2048x4096, .f32⟩) main_call2_v2) (TRef.of (T := ⟨S4x2048x4096, .f32⟩) main_v9) minimumf,
    unary main_v5 main_v10 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v9 main_v10 main_v11 (mulf : (⟨S4x2048x4096, .f32⟩ : BufTy).Contents (Elt F) → (⟨S4x2048x4096, .f32⟩ : BufTy).Contents (Elt F) → (⟨S4x2048x4096, .f32⟩ : BufTy).Contents (Elt F)),
    binary main_v11 main_arg0 main_v12 (subf : (⟨S4x2048x4096, .f32⟩ : BufTy).Contents (Elt F) → (⟨S4x2048x4096, .f32⟩ : BufTy).Contents (Elt F) → (⟨S4x2048x4096, .f32⟩ : BufTy).Contents (Elt F)),
    binary main_arg0 main_v12 main_v13 (addf : (⟨S4x2048x4096, .f32⟩ : BufTy).Contents (Elt F) → (⟨S4x2048x4096, .f32⟩ : BufTy).Contents (Elt F) → (⟨S4x2048x4096, .f32⟩ : BufTy).Contents (Elt F)),
    unary main_arg1 main_v14 (Host.absf : (⟨S16384x4096, .f32⟩ : BufTy).Contents (Elt F) → (⟨S16384x4096, .f32⟩ : BufTy).Contents (Elt F)),
    nullary main_cst_4 (constant S_ .f32 0x00000000#32),
    binary main_v14 main_cst_4 main_v15 ((fun x v => Host.reduceAdd x v reducesTo_S16384x4096_S_d0_1 h_S_) : (⟨S16384x4096, .f32⟩ : BufTy).Contents (Elt F) → (⟨S_, .f32⟩ : BufTy).Contents (Elt F) → (⟨S_, .f32⟩ : BufTy).Contents (Elt F)),
    nullary main_cst_5 (constant S_ .f32 0x4C800000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    TRef.unary (TRef.of (T := ⟨S_, .f32⟩) main_cst_6) (TRef.of (T := ⟨S_, .f32⟩) main_call3_v0) id,
    TRef.binary (TRef.of (T := ⟨S_, .f32⟩) main_call3_v0) (TRef.of (T := ⟨S_, .f32⟩) main_v16) (TRef.of (T := ⟨S_, .f32⟩) main_v17) maximumf,
    unary main_v17 main_v18 (broadcastInDim S16384x4096 ![] bcast_S_S16384x4096 : (⟨S_, .f32⟩ : BufTy).Contents (Elt F) → (⟨S16384x4096, .f32⟩ : BufTy).Contents (Elt F)),
    binary main_arg1 main_v18 main_v19 (Host.divf : (⟨S16384x4096, .f32⟩ : BufTy).Contents (Elt F) → (⟨S16384x4096, .f32⟩ : BufTy).Contents (Elt F) → (⟨S16384x4096, .f32⟩ : BufTy).Contents (Elt F)),
    TRef.unary (TRef.of (T := ⟨S16384x4096, .f32⟩) main_v19) (TRef.of (T := ⟨S16384x4096, .f32⟩) main_v20) Host.roundeven,
    nullary main_cst_7 (constant S_ .f32 0xBF800000#32),
    nullary main_cst_8 (constant S_ .f32 0x3F800000#32),
    TRef.unary (TRef.of (T := ⟨S_, .f32⟩) main_cst_7) (TRef.of (T := ⟨S_, .f32⟩) main_call5_v0) id,
    TRef.unary (TRef.of (T := ⟨S_, .f32⟩) main_call5_v0) (TRef.of (T := ⟨S16384x4096, .f32⟩) main_call5_v1) (broadcastInDim S16384x4096 ![] bcast_S_S16384x4096),
    TRef.binary (TRef.of (T := ⟨S16384x4096, .f32⟩) main_call5_v1) (TRef.of (T := ⟨S16384x4096, .f32⟩) main_v20) (TRef.of (T := ⟨S16384x4096, .f32⟩) main_call5_v2) maximumf,
    TRef.unary (TRef.of (T := ⟨S_, .f32⟩) main_cst_8) (TRef.of (T := ⟨S_, .f32⟩) main_call5_v3) id,
    TRef.unary (TRef.of (T := ⟨S_, .f32⟩) main_call5_v3) (TRef.of (T := ⟨S16384x4096, .f32⟩) main_call5_v4) (broadcastInDim S16384x4096 ![] bcast_S_S16384x4096),
    TRef.binary (TRef.of (T := ⟨S16384x4096, .f32⟩) main_call5_v4) (TRef.of (T := ⟨S16384x4096, .f32⟩) main_call5_v2) (TRef.of (T := ⟨S16384x4096, .f32⟩) main_v21) minimumf,
    unary main_v17 main_v22 (broadcastInDim S16384x4096 ![] bcast_S_S16384x4096 : (⟨S_, .f32⟩ : BufTy).Contents (Elt F) → (⟨S16384x4096, .f32⟩ : BufTy).Contents (Elt F)),
    binary main_v21 main_v22 main_v23 (mulf : (⟨S16384x4096, .f32⟩ : BufTy).Contents (Elt F) → (⟨S16384x4096, .f32⟩ : BufTy).Contents (Elt F) → (⟨S16384x4096, .f32⟩ : BufTy).Contents (Elt F)),
    binary main_v23 main_arg1 main_v24 (subf : (⟨S16384x4096, .f32⟩ : BufTy).Contents (Elt F) → (⟨S16384x4096, .f32⟩ : BufTy).Contents (Elt F) → (⟨S16384x4096, .f32⟩ : BufTy).Contents (Elt F)),
    binary main_arg1 main_v24 main_v25 (addf : (⟨S16384x4096, .f32⟩ : BufTy).Contents (Elt F) → (⟨S16384x4096, .f32⟩ : BufTy).Contents (Elt F) → (⟨S16384x4096, .f32⟩ : BufTy).Contents (Elt F)),
    binary main_v13 main_v25 main_v26 ((fun l r => Host.dotGeneral dot_S4x2048x4096_S16384x4096_S4x2048x16384_2_1_01_0_n_n none l r) : (⟨S4x2048x4096, .f32⟩ : BufTy).Contents (Elt F) → (⟨S16384x4096, .f32⟩ : BufTy).Contents (Elt F) → (⟨S4x2048x16384, .f32⟩ : BufTy).Contents (Elt F)) ]

/-- All 50. -/
abbrev ops : List (HloOp τ sig (Elt F)) := opsA ++ opsB

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  show ([ unary main_arg0 main_v0 (Host.absf : (⟨S4x2048x4096, .f32⟩ : BufTy).Contents (Elt F) → (⟨S4x2048x4096, .f32⟩ : BufTy).Contents (Elt F)),
    nullary main_cst (constant S_ .f32 0xFF800000#32),
    binary main_v0 main_cst main_v1 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x2048x1, .f32⟩) main_call0_v1) (broadcastInDim S4x2048x1 ![] bcast_S_S4x2048x1),
    TRef.binary (TRef.of (T := ⟨S4x2048x1, .f32⟩) main_call0_v1) (TRef.of (T := ⟨S4x2048x1, .f32⟩) main_v2) (TRef.of (T := ⟨S4x2048x1, .f32⟩) main_v3) maximumf,
    nullary main_cst_1 (constant S_ .f32 0x40E00000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v3 main_v4 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v6 main_v7 (Host.divf : (⟨S4x2048x4096, .f32⟩ : BufTy).Contents (Elt F) → (⟨S4x2048x4096, .f32⟩ : BufTy).Contents (Elt F) → (⟨S4x2048x4096, .f32⟩ : BufTy).Contents (Elt F)),
    TRef.unary (TRef.of (T := ⟨S4x2048x4096, .f32⟩) main_v7) (TRef.of (T := ⟨S4x2048x4096, .f32⟩) main_v8) Host.roundeven,
    nullary main_cst_2 (constant S_ .f32 0xC1000000#32),
    nullary main_cst_3 (constant S_ .f32 0x40E00000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S4x2048x4096, .f32⟩) main_call2_v1) (broadcastInDim S4x2048x4096 ![] bcast_S_S4x2048x4096),
    TRef.binary (TRef.of (T := ⟨S4x2048x4096, .f32⟩) main_call2_v1) (TRef.of (T := ⟨S4x2048x4096, .f32⟩) main_v8) (TRef.of (T := ⟨S4x2048x4096, .f32⟩) main_call2_v2) maximumf,
    TRef.unary (TRef.of (T := ⟨S_, .f32⟩) main_cst_3) (TRef.of (T := ⟨S_, .f32⟩) main_call2_v3) id,
    TRef.unary (TRef.of (T := ⟨S_, .f32⟩) main_call2_v3) (TRef.of (T := ⟨S4x2048x4096, .f32⟩) main_call2_v4) (broadcastInDim S4x2048x4096 ![] bcast_S_S4x2048x4096),
    TRef.binary (TRef.of (T := ⟨S4x2048x4096, .f32⟩) main_call2_v4) (TRef.of (T := ⟨S4x2048x4096, .f32⟩) main_call2_v2) (TRef.of (T := ⟨S4x2048x4096, .f32⟩) main_v9) minimumf,
    unary main_v5 main_v10 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v9 main_v10 main_v11 (mulf : (⟨S4x2048x4096, .f32⟩ : BufTy).Contents (Elt F) → (⟨S4x2048x4096, .f32⟩ : BufTy).Contents (Elt F) → (⟨S4x2048x4096, .f32⟩ : BufTy).Contents (Elt F)),
    binary main_v11 main_arg0 main_v12 (subf : (⟨S4x2048x4096, .f32⟩ : BufTy).Contents (Elt F) → (⟨S4x2048x4096, .f32⟩ : BufTy).Contents (Elt F) → (⟨S4x2048x4096, .f32⟩ : BufTy).Contents (Elt F)),
    binary main_arg0 main_v12 main_v13 (addf : (⟨S4x2048x4096, .f32⟩ : BufTy).Contents (Elt F) → (⟨S4x2048x4096, .f32⟩ : BufTy).Contents (Elt F) → (⟨S4x2048x4096, .f32⟩ : BufTy).Contents (Elt F)),
    unary main_arg1 main_v14 (Host.absf : (⟨S16384x4096, .f32⟩ : BufTy).Contents (Elt F) → (⟨S16384x4096, .f32⟩ : BufTy).Contents (Elt F)),
    nullary main_cst_4 (constant S_ .f32 0x00000000#32),
    binary main_v14 main_cst_4 main_v15 ((fun x v => Host.reduceAdd x v reducesTo_S16384x4096_S_d0_1 h_S_) : (⟨S16384x4096, .f32⟩ : BufTy).Contents (Elt F) → (⟨S_, .f32⟩ : BufTy).Contents (Elt F) → (⟨S_, .f32⟩ : BufTy).Contents (Elt F)),
    nullary main_cst_5 (constant S_ .f32 0x4C800000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    TRef.unary (TRef.of (T := ⟨S_, .f32⟩) main_cst_6) (TRef.of (T := ⟨S_, .f32⟩) main_call3_v0) id,
    TRef.binary (TRef.of (T := ⟨S_, .f32⟩) main_call3_v0) (TRef.of (T := ⟨S_, .f32⟩) main_v16) (TRef.of (T := ⟨S_, .f32⟩) main_v17) maximumf,
    unary main_v17 main_v18 (broadcastInDim S16384x4096 ![] bcast_S_S16384x4096 : (⟨S_, .f32⟩ : BufTy).Contents (Elt F) → (⟨S16384x4096, .f32⟩ : BufTy).Contents (Elt F)),
    binary main_arg1 main_v18 main_v19 (Host.divf : (⟨S16384x4096, .f32⟩ : BufTy).Contents (Elt F) → (⟨S16384x4096, .f32⟩ : BufTy).Contents (Elt F) → (⟨S16384x4096, .f32⟩ : BufTy).Contents (Elt F)),
    TRef.unary (TRef.of (T := ⟨S16384x4096, .f32⟩) main_v19) (TRef.of (T := ⟨S16384x4096, .f32⟩) main_v20) Host.roundeven,
    nullary main_cst_7 (constant S_ .f32 0xBF800000#32),
    nullary main_cst_8 (constant S_ .f32 0x3F800000#32),
    TRef.unary (TRef.of (T := ⟨S_, .f32⟩) main_cst_7) (TRef.of (T := ⟨S_, .f32⟩) main_call5_v0) id,
    TRef.unary (TRef.of (T := ⟨S_, .f32⟩) main_call5_v0) (TRef.of (T := ⟨S16384x4096, .f32⟩) main_call5_v1) (broadcastInDim S16384x4096 ![] bcast_S_S16384x4096),
    TRef.binary (TRef.of (T := ⟨S16384x4096, .f32⟩) main_call5_v1) (TRef.of (T := ⟨S16384x4096, .f32⟩) main_v20) (TRef.of (T := ⟨S16384x4096, .f32⟩) main_call5_v2) maximumf,
    TRef.unary (TRef.of (T := ⟨S_, .f32⟩) main_cst_8) (TRef.of (T := ⟨S_, .f32⟩) main_call5_v3) id,
    TRef.unary (TRef.of (T := ⟨S_, .f32⟩) main_call5_v3) (TRef.of (T := ⟨S16384x4096, .f32⟩) main_call5_v4) (broadcastInDim S16384x4096 ![] bcast_S_S16384x4096),
    TRef.binary (TRef.of (T := ⟨S16384x4096, .f32⟩) main_call5_v4) (TRef.of (T := ⟨S16384x4096, .f32⟩) main_call5_v2) (TRef.of (T := ⟨S16384x4096, .f32⟩) main_v21) minimumf,
    unary main_v17 main_v22 (broadcastInDim S16384x4096 ![] bcast_S_S16384x4096 : (⟨S_, .f32⟩ : BufTy).Contents (Elt F) → (⟨S16384x4096, .f32⟩ : BufTy).Contents (Elt F)),
    binary main_v21 main_v22 main_v23 (mulf : (⟨S16384x4096, .f32⟩ : BufTy).Contents (Elt F) → (⟨S16384x4096, .f32⟩ : BufTy).Contents (Elt F) → (⟨S16384x4096, .f32⟩ : BufTy).Contents (Elt F)),
    binary main_v23 main_arg1 main_v24 (subf : (⟨S16384x4096, .f32⟩ : BufTy).Contents (Elt F) → (⟨S16384x4096, .f32⟩ : BufTy).Contents (Elt F) → (⟨S16384x4096, .f32⟩ : BufTy).Contents (Elt F)),
    binary main_arg1 main_v24 main_v25 (addf : (⟨S16384x4096, .f32⟩ : BufTy).Contents (Elt F) → (⟨S16384x4096, .f32⟩ : BufTy).Contents (Elt F) → (⟨S16384x4096, .f32⟩ : BufTy).Contents (Elt F)),
    binary main_v13 main_v25 main_v26 ((fun l r => Host.dotGeneral dot_S4x2048x4096_S16384x4096_S4x2048x16384_2_1_01_0_n_n none l r) : (⟨S4x2048x4096, .f32⟩ : BufTy).Contents (Elt F) → (⟨S16384x4096, .f32⟩ : BufTy).Contents (Elt F) → (⟨S4x2048x16384, .f32⟩ : BufTy).Contents (Elt F)) ] : List (HloOp τ sig (Elt F))).Forall (fun op => op.bufs ⊆ tcRefs τ sig) from
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub ..⟩

/-- The first three operations leave the row maxima of the activations, -/
theorem pre_v1 (V₀ : Valuation τ sig (Elt F)) :
    (after opsA V₀ (Proc.devRef .tc main_v1) : FVec F S4x2048 .f32) = rowMax (V₀ (Proc.devRef .tc main_arg0)) := by
  after_results
  rfl

/-- and both arguments as they were. -/
theorem pre_arg0 (V₀ : Valuation τ sig (Elt F)) : after opsA V₀ (Proc.devRef .tc main_arg0) = V₀ (Proc.devRef .tc main_arg0) := by
  after_results
theorem pre_arg1 (V₀ : Valuation τ sig (Elt F)) : after opsA V₀ (Proc.devRef .tc main_arg1) = V₀ (Proc.devRef .tc main_arg1) := by
  after_results

set_option maxRecDepth 8192 in
set_option maxHeartbeats 2000000 in
/-- The other 47, from any contents W: the result is the staged function of W's activations, row maxima and weights, -/
theorem post_v26 (W : Valuation τ sig (Elt F)) :
    (after opsB W (Proc.devRef .tc main_v26) : FVec F S4x2048x16384 .f32)
      = refOut (W (Proc.devRef .tc main_arg0)) (W (Proc.devRef .tc main_v1)) (W (Proc.devRef .tc main_arg1)) := by
  after_results_simp
  rfl

set_option maxRecDepth 8192 in
set_option maxHeartbeats 2000000 in
/-- and the arguments are as in W. -/
theorem post_arg0 (W : Valuation τ sig (Elt F)) : after opsB W (Proc.devRef .tc main_arg0) = W (Proc.devRef .tc main_arg0) := by
  after_results_simp
set_option maxRecDepth 8192 in
set_option maxHeartbeats 2000000 in
theorem post_arg1 (W : Valuation τ sig (Elt F)) : after opsB W (Proc.devRef .tc main_arg1) = W (Proc.devRef .tc main_arg1) := by
  after_results_simp

/-- On every device, for any float values, from any memory with zero counters: every weakly fair execution of the
    reference terminates with its result at the staged function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = refOut (m ((c.tc : Thread nD τ).loc main_arg0)) (rowMax (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (by
        rw [StableHlo.after_append, post_v26, pre_v1, pre_arg0, pre_arg1]),
      (h c main_arg0).trans (by rw [StableHlo.after_append, post_arg0, pre_arg0]),
      (h c main_arg1).trans (by rw [StableHlo.after_append, post_arg1, pre_arg1])⟩)
    (run_seq scopedRefs_eq scopedSems_eq defs main (fun _ => ops) main_eq (fun _ => ops_sub) m ρ)

end Cert.ReferenceIdeal.HandRun

end
-- ==== Proof.Finite.lean ====
/-
  From the precondition to real entries.

  The precondition says that every entry of both inputs has absolute value below +inf: a conjunction of two
  all-reductions of pointwise comparisons.  An extended real whose absolute value max(x, −x) is below +inf is neither
  infinity, so it is a real number.
-/
import proofs.«109422_j16716012716233_1_alg».proof.Pre_finite_inputs
import proofs.«109422_j16716012716233_1_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

open Idealize.ShloMosaic

namespace Cert.Finite

instance : Subsingleton Cert.Pre_finite_inputs.S_.Idx := ⟨fun a b => funext fun d => d.elim0⟩

/-- An extended real whose absolute value is below +inf is a real number. -/
theorem real_of_abs_lt (x : EReal) (h : Ideal.cmp .olt (max x (-x)) (Ideal.ofBits .f32 0x7F800000#32) = 1#1) :
    ∃ v : ℝ, x = (v : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition every activation and every weight is a real number. -/
theorem real_of_pre (x : FVec Ideal Cert.Pre_finite_inputs.S4x2048x4096 .f32) (w : FVec Ideal Cert.Pre_finite_inputs.S16384x4096 .f32)
    (h : Cert.Pre_finite_inputs.fn (F := Ideal) x w = fun _ => 1#1) :
    (∀ i, ∃ v : ℝ, x i = (v : EReal)) ∧ (∀ i, ∃ v : ℝ, w i = (v : EReal)) := by
  have h0 := congrFun h ValueIdx.ix0
  dsimp only [Cert.Pre_finite_inputs.fn] at h0
  obtain ⟨hx, hw⟩ := IntOp.andi_eq_one.mp h0
  exact ⟨fun i => real_of_abs_lt (x i) (Host.reduce_andi_all _ _ _ _ _ hx i),
    fun i => real_of_abs_lt (w i) (Host.reduce_andi_all _ _ _ _ _ hw i)⟩

end Cert.Finite

end
-- ==== Proof.lean ====
/-
  A quantised linear layer: a Pallas kernel against its jnp reference, equal over the extended reals.

  Both programs quantise the activations x [4, 2048, 4096] row by row — s the row's max |x|, floored at 1e-5 and
  divided by 7;  qa x s = clamp(round(x / s), −8, 7) · s — and the weights w [16384, 4096] by one scale — t the mean
  of |w| floored at 1e-5;  qw w t = clamp(round(w / t), −1, 1) · t — and multiply: the output at (b, r, n) is
  Σ_i qa x[b,r,i] s[b,r] · qw w[n,i] t.

  The kernel works on x as an [8192, 4096] matrix, in blocks: a grid of 4 · 16 · 16 points, the last coordinate
  running over 16 blocks of 256 features; a point with reduction step 0 zeroes its [2048, 1024] output block, every
  point adds to it the product of its quantised activation block with its quantised weight block, and the block is
  written back after step 15.  The reference keeps x and w in their shapes, writes each quantised array in the
  straight-through form x + (q − x), and contracts once over all 4096 features.

  They agree because (i) the reshape keeps row-major order, so a row of the matrix is a row of x, with the same
  maximum and the same scale; (ii) 0 + B₀ + … + B₁₅ of the sixteen block sums is the sum over all features —
  addition of extended reals is commutative and associative; (iii) x + (q − x) = q when x is a real number, which the
  precondition (every input entry finite) provides.  Rounding, quotient and clamps are the same exact operations on
  both sides and are never opened; a change of float format is the identity over the extended reals.

  The three frames: the two kernels' are the generated frame certificates; the reference's is its run with the result
  dropped.  The ideal pass rewrote nothing, so its conjunct is trivial.
-/
import proofs.«109422_j16716012716233_1_alg».proof.Defs
import proofs.«109422_j16716012716233_1_alg».proof.Proof.Gen.Kernel
import proofs.«109422_j16716012716233_1_alg».proof.Proof.Gen.Kernel.Frame
import proofs.«109422_j16716012716233_1_alg».proof.Proof.Gen.KernelIdeal
import proofs.«109422_j16716012716233_1_alg».proof.Proof.Gen.KernelIdeal.Frame
import proofs.«109422_j16716012716233_1_alg».proof.Proof.Gen.ReferenceIdeal
import proofs.«109422_j16716012716233_1_alg».proof.Proof.Gen.Pre_finite_inputs
import proofs.«109422_j16716012716233_1_alg».proof.Proof.Bridge
import proofs.«109422_j16716012716233_1_alg».proof.Proof.RefRun
import proofs.«109422_j16716012716233_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- The kernel's result buffer ends at its reshaped result, a function of the two arguments; the reference's at its
    staged function of arguments that agree with the kernel's; under the precondition the arguments' entries are real,
    and the two functions are one. -/
theorem algebraic : Cert.algebraic_KernelIdeal_ReferenceIdeal := by
  intro m ρ m' ρ' hpre hagree
  refine ⟨fun c => shapeCast Cert.KernelIdeal.S4x2048x16384 (Cert.KernelIdeal.Result.Kres m c)
      Cert.KernelIdeal.Facts₀.shapeCasts_S8192x16384_S4x2048x16384, Cert.KernelIdeal.Result.run m ρ, ?_⟩
  refine (θ_run Cert.ReferenceIdeal.defs _ _).mono (fun _ h c => ⟨(h c).1.trans ?_, (h c).2⟩)
    (Cert.ReferenceIdeal.HandRun.run (F := Ideal) m' ρ')
  obtain ⟨hx, hw⟩ := Cert.Finite.real_of_pre _ _ (hpre c)
  rw [(hagree c).1, (hagree c).2]
  show _ = shapeCast Cert.KernelIdeal.S4x2048x16384 (Cert.KernelIdeal.Result.Kres m c)
    Cert.KernelIdeal.Facts₀.shapeCasts_S8192x16384_S4x2048x16384
  rw [Cert.KernelIdeal.Result.Kres_eq m c]
  exact (Cert.Bridge.result_eq _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
